-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S512x32 : Shape := ⟨2, ![512, 32]⟩
abbrev S32 : Shape := ⟨1, ![32]⟩
abbrev S512 : Shape := ⟨1, ![512]⟩
abbrev S512x512 : Shape := ⟨2, ![512, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_arg9 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S512 .f32) (main_arg6 : FVec F S512x512 .f32) (main_arg7 : FVec F S512 .f32) (main_arg8 : FVec F S512 .f32) (main_arg9 : FVec F S512 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x256 .f32) (main_arg3 : FVec F S512x32 .f32) (main_arg4 : FVec F S32 .f32) (main_arg5 : FVec F S512 .f32) (main_arg6 : FVec F S512x512 .f32) (main_arg7 : FVec F S512 .f32) (main_arg8 : FVec F S512 .f32) (main_arg9 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x32 .f32 := Host.absf main_arg3
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S512x32 : Shape := ⟨2, ![512, 32]⟩
abbrev S32 : Shape := ⟨1, ![32]⟩
abbrev S512 : Shape := ⟨1, ![512]⟩
abbrev S512x512 : Shape := ⟨2, ![512, 512]⟩
abbrev S1x32 : Shape := ⟨2, ![1, 32]⟩
abbrev S1x512 : Shape := ⟨2, ![1, 512]⟩
abbrev S50000x256 : Shape := ⟨2, ![50000, 256]⟩
abbrev S50000x32 : Shape := ⟨2, ![50000, 32]⟩
abbrev S2000x512 : Shape := ⟨2, ![2000, 512]⟩
abbrev S2000x256 : Shape := ⟨2, ![2000, 256]⟩
abbrev S2000x32 : Shape := ⟨2, ![2000, 32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1000x32 : Shape := ⟨2, ![1000, 32]⟩
abbrev S1000x256 : Shape := ⟨2, ![1000, 256]⟩
abbrev S1000x512 : Shape := ⟨2, ![1000, 512]⟩
abbrev S1000x8x4 : Shape := ⟨3, ![1000, 8, 4]⟩
abbrev S1000x4x64 : Shape := ⟨3, ![1000, 4, 64]⟩
abbrev S1000x8x64 : Shape := ⟨3, ![1000, 8, 64]⟩
abbrev S1000x8x1 : Shape := ⟨3, ![1000, 8, 1]⟩
abbrev S1000x8 : Shape := ⟨2, ![1000, 8]⟩
abbrev S1000x1x64 : Shape := ⟨3, ![1000, 1, 64]⟩
abbrev S1000x64 : Shape := ⟨2, ![1000, 64]⟩
abbrev S1000 : Shape := ⟨1, ![1000]⟩
abbrev S1000x1 : Shape := ⟨2, ![1000, 1]⟩

abbrev nBuf : Space → Nat
  | .hbm => 81
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S512x32, .f32⟩
  | .hbm, ⟨4, _⟩ => ⟨S32, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x256, .bf16⟩
  | .hbm, ⟨11, _⟩ => ⟨S512x32, .bf16⟩
  | .hbm, ⟨12, _⟩ => ⟨S512x512, .bf16⟩
  | .hbm, ⟨13, _⟩ => ⟨S1x32, .f32⟩
  | .hbm, ⟨14, _⟩ => ⟨S1x512, .f32⟩
  | .hbm, ⟨15, _⟩ => ⟨S50000x256, .f32⟩
  | .hbm, ⟨16, _⟩ => ⟨S50000x32, .f32⟩
  | .hbm, ⟨17, _⟩ => ⟨S50000x512, .f32⟩
  | .hbm, ⟨18, _⟩ => ⟨S50000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S1x800000, .i32⟩
  | .hbm, ⟨23, _⟩ => ⟨S800000, .i32⟩
  | .hbm, ⟨24, _⟩ => ⟨S850000, .i32⟩
  | .hbm, ⟨25, _⟩ => ⟨S_, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000, .f32⟩
  | .hbm, ⟨60, _⟩ => ⟨S850000, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x256, .f32⟩
  | .hbm, ⟨70, _⟩ => ⟨S850000x1, .f32⟩
  | .hbm, ⟨71, _⟩ => ⟨S850000x256, .f32⟩
  | .hbm, ⟨72, _⟩ => ⟨S850000x256, .f32⟩
  | .hbm, ⟨73, _⟩ => ⟨S_, .f32⟩
  | .hbm, ⟨74, _⟩ => ⟨S50000x256, .f32⟩
  | .hbm, ⟨75, _⟩ => ⟨S850000x1, .i32⟩
  | .hbm, ⟨76, _⟩ => ⟨S50000x256, .f32⟩
  | .hbm, ⟨77, _⟩ => ⟨S1x512, .f32⟩
  | .hbm, ⟨78, _⟩ => ⟨S1x512, .f32⟩
  | .hbm, ⟨79, _⟩ => ⟨S1x512, .f32⟩
  | .hbm, ⟨80, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S512x32, .bf16⟩
  | .local _ .vmem, ⟨4, _⟩ => ⟨S1x32, .f32⟩
  | .local _ .vmem, ⟨5, _⟩ => ⟨S512x512, .bf16⟩
  | .local _ .vmem, ⟨6, _⟩ => ⟨S1x512, .f32⟩
  | .local _ .vmem, ⟨7, _⟩ => ⟨S2000x256, .f32⟩
  | .local _ .vmem, ⟨8, _⟩ => ⟨S2000x256, .f32⟩
  | .local _ .vmem, ⟨9, _⟩ => ⟨S2000x32, .f32⟩
  | .local _ .vmem, ⟨10, _⟩ => ⟨S2000x32, .f32⟩
  | .local _ .vmem, ⟨11, _⟩ => ⟨S2000x512, .f32⟩
  | .local _ .vmem, ⟨12, _⟩ => ⟨S2000x512, .f32⟩
  | .local _ .vmem, ⟨13, _⟩ => ⟨S1000x32, .f32⟩
  | .local _ .vmem, ⟨14, _⟩ => ⟨S1000x32, .f32⟩
  | .local _ .vmem, ⟨15, _⟩ => ⟨S1000x256, .f32⟩
  | .local _ .vmem, ⟨16, _⟩ => ⟨S1000x256, .f32⟩
  | .local _ .vmem, ⟨17, _⟩ => ⟨S1000x512, .f32⟩
  | .local _ .vmem, ⟨18, _⟩ => ⟨S1000x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1000x512, .f32⟩
  | .local _ .vmem, ⟨23, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  shapeCasts_S32_S1x32 : S32.ShapeCasts S1x32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  shapeCasts_S1000x32_S1000x8x4 : S1000x32.ShapeCasts S1000x8x4
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  shapeCasts_S1000x256_S1000x4x64 : S1000x256.ShapeCasts S1000x4x64
  slices_S1000x8x4_o0_0_0_S1000x8x1 : S1000x8x4.Slices ![0, 0, 0] S1000x8x1
  shapeCasts_S1000x8x1_S1000x8 : S1000x8x1.ShapeCasts S1000x8
  slices_S1000x4x64_o0_0_0_S1000x1x64 : S1000x4x64.Slices ![0, 0, 0] S1000x1x64
  shapeCasts_S1000x1x64_S1000x64 : S1000x1x64.ShapeCasts S1000x64
  shapeCasts_S1000x8_S1000x8x1 : S1000x8.ShapeCasts S1000x8x1
  shapeCasts_S1000x64_S1000x1x64 : S1000x64.ShapeCasts S1000x1x64
  broadcasts_S1000x8x1_S1000x8x64 : S1000x8x1.Broadcasts S1000x8x64
  broadcasts_S1000x1x64_S1000x8x64 : S1000x1x64.Broadcasts S1000x8x64
  slices_S1000x8x4_o0_0_1_S1000x8x1 : S1000x8x4.Slices ![0, 0, 1] S1000x8x1
  slices_S1000x4x64_o0_1_0_S1000x1x64 : S1000x4x64.Slices ![0, 1, 0] S1000x1x64
  slices_S1000x8x4_o0_0_2_S1000x8x1 : S1000x8x4.Slices ![0, 0, 2] S1000x8x1
  slices_S1000x4x64_o0_2_0_S1000x1x64 : S1000x4x64.Slices ![0, 2, 0] S1000x1x64
  slices_S1000x8x4_o0_0_3_S1000x8x1 : S1000x8x4.Slices ![0, 0, 3] S1000x8x1
  slices_S1000x4x64_o0_3_0_S1000x1x64 : S1000x4x64.Slices ![0, 3, 0] S1000x1x64
  shapeCasts_S1000x8x64_S1000x512 : S1000x8x64.ShapeCasts S1000x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  reduces_S1000x512_S1000 : S1000x512.Reduces [1] S1000
  shapeCasts_S1000_S1000x1 : S1000.ShapeCasts S1000x1
  broadcasts_S1000x1_S1000x512 : S1000x1.Broadcasts S1000x512
  dot_S2000x512_S512x256_S2000x256_1_0_0_1_n_n_wf : DotDims.WF S2000x512 S512x256 S2000x256 [1] [0] [0] [1] [] []
  dot_S2000x512_S512x32_S2000x32_1_0_0_1_n_n_wf : DotDims.WF S2000x512 S512x32 S2000x32 [1] [0] [0] [1] [] []
  dot_S2000x512_S512x512_S2000x512_1_0_0_1_n_n_wf : DotDims.WF S2000x512 S512x512 S2000x512 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .bf16 = 32 ∨ (Rect.block (s := S512x32) S512x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x32.size a ≤ S50000x32.size a
  hwx0_7 : ∀ i : grid0.Coords, EltTy.bits .f32 = 32 ∨ (Rect.block (s := S50000x32) S2000x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x512.size a ≤ S50000x512.size a
  hwx0_8 : ∀ i : grid0.Coords, EltTy.bits .f32 = 32 ∨ (Rect.block (s := S50000x512) S2000x512.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x32.size a ≤ S50000x32.size a
  hwx1_0 : ∀ i : grid1.Coords, EltTy.bits .f32 = 32 ∨ (Rect.block (s := S50000x32) S1000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S50000x512.size a
  hwx1_2 : ∀ i : grid1.Coords, EltTy.bits .f32 = 32 ∨ (Rect.block (s := S50000x512) S1000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S50000x512.size a
  hwx1_6 : ∀ i : grid1.Coords, EltTy.bits .f32 = 32 ∨ (Rect.block (s := S50000x512) S1000x512.size (cc1_transform_6 i) (hinb1_6 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S2000x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S2000x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v5_1) S1000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S512x32 : Shape := ⟨2, ![512, 32]⟩
abbrev S32 : Shape := ⟨1, ![32]⟩
abbrev S512 : Shape := ⟨1, ![512]⟩
abbrev S512x512 : Shape := ⟨2, ![512, 512]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S50000x32 : Shape := ⟨2, ![50000, 32]⟩
abbrev S1x32 : Shape := ⟨2, ![1, 32]⟩
abbrev S50000x8x4 : Shape := ⟨3, ![50000, 8, 4]⟩
abbrev S50000x4x64 : Shape := ⟨3, ![50000, 4, 64]⟩
abbrev S50000x8x64 : Shape := ⟨3, ![50000, 8, 64]⟩
abbrev S1x512 : Shape := ⟨2, ![1, 512]⟩
abbrev S50000x1 : Shape := ⟨2, ![50000, 1]⟩

abbrev nBuf : Space → Nat
  | .hbm => 133
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S512x32, .f32⟩
  | 4 => ⟨S32, .f32⟩
  | 5 => ⟨S512, .f32⟩
  | 6 => ⟨S512x512, .f32⟩
  | 7 => ⟨S512, .f32⟩
  | 8 => ⟨S512, .f32⟩
  | 9 => ⟨S512, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x256, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S50000x32, .f32⟩
  | 71 => ⟨S1x32, .f32⟩
  | 72 => ⟨S50000x32, .f32⟩
  | 73 => ⟨S50000x32, .f32⟩
  | 74 => ⟨S50000x8x4, .f32⟩
  | 75 => ⟨S50000x4x64, .f32⟩
  | 76 => ⟨S50000x8x64, .f32⟩
  | 77 => ⟨S50000x512, .f32⟩
  | 78 => ⟨S1x512, .f32⟩
  | 79 => ⟨S50000x512, .f32⟩
  | 80 => ⟨S50000x512, .f32⟩
  | 81 => ⟨S50000x512, .f32⟩
  | 82 => ⟨S50000x512, .f32⟩
  | 83 => ⟨S1x512, .f32⟩
  | 84 => ⟨S50000x512, .f32⟩
  | 85 => ⟨S50000x512, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S_, .i32⟩
  | 93 => ⟨S_, .f32⟩
  | 94 => ⟨S50000, .f32⟩
  | 95 => ⟨S50000x1, .f32⟩
  | 96 => ⟨S_, .f32⟩
  | 97 => ⟨S50000x1, .f32⟩
  | 98 => ⟨S50000x1, .f32⟩
  | 99 => ⟨S50000x512, .f32⟩
  | 100 => ⟨S50000x512, .f32⟩
  | 101 => ⟨S50000x512, .f32⟩
  | 102 => ⟨S_, .f32⟩
  | 103 => ⟨S_, .f32⟩
  | 104 => ⟨S_, .f32⟩
  | 105 => ⟨S_, .f32⟩
  | 106 => ⟨S50000, .f32⟩
  | 107 => ⟨S50000x1, .f32⟩
  | 108 => ⟨S50000x1, .f32⟩
  | 109 => ⟨S50000x1, .f32⟩
  | 110 => ⟨S_, .f32⟩
  | 111 => ⟨S_, .i1⟩
  | 112 => ⟨S_, .f32⟩
  | 113 => ⟨S_, .f32⟩
  | 114 => ⟨S50000x1, .f32⟩
  | 115 => ⟨S50000x1, .f32⟩
  | 116 => ⟨S50000x512, .f32⟩
  | 117 => ⟨S50000x512, .f32⟩
  | 118 => ⟨S_, .f32⟩
  | 119 => ⟨S50000x1, .f32⟩
  | 120 => ⟨S50000x1, .f32⟩
  | 121 => ⟨S50000x1, .f32⟩
  | 122 => ⟨S50000x512, .f32⟩
  | 123 => ⟨S50000x512, .f32⟩
  | 124 => ⟨S1x512, .f32⟩
  | 125 => ⟨S50000x512, .f32⟩
  | 126 => ⟨S50000x512, .f32⟩
  | 127 => ⟨S1x512, .f32⟩
  | _ => ⟨S50000x512, .f32⟩

abbrev hbmTy0_1 (i : Nat) : BufTy := match i % 128 with
  | 0 => ⟨S50000x512, .f32⟩
  | 1 => ⟨S50000x512, .f32⟩
  | 2 => ⟨S_, .f32⟩
  | 3 => ⟨S50000x512, .f32⟩
  | 4 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_cst_11 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_cst_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_cst_1 : Ref sig .tc := ⟨.hbm, 103, rfl⟩
abbrev main_call1_v8 : Ref sig .tc := ⟨.hbm, 104, rfl⟩
abbrev main_call1_cst_2 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_v12 : Ref sig .tc := ⟨.hbm, 109, rfl⟩
abbrev main_call1_cst_3 : Ref sig .tc := ⟨.hbm, 110, rfl⟩
abbrev main_call1_v13 : Ref sig .tc := ⟨.hbm, 111, rfl⟩
abbrev main_call1_cst_4 : Ref sig .tc := ⟨.hbm, 112, rfl⟩
abbrev main_call1_call0_v0 : Ref sig .tc := ⟨.hbm, 113, rfl⟩
abbrev main_call1_call0_v1 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_13 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_call2_cst : Ref sig .tc := ⟨.hbm, 130, rfl⟩
abbrev main_call2_v0 : Ref sig .tc := ⟨.hbm, 131, rfl⟩
abbrev main_v80 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S50000x32_S50000x8x4 : S50000x32.ShapeCasts S50000x8x4
  shapeCasts_S50000x256_S50000x4x64 : S50000x256.ShapeCasts S50000x4x64
  shapeCasts_S50000x8x64_S50000x512 : S50000x8x64.ShapeCasts S50000x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x512_S512x32_S50000x32_1_0_0_1_n_n_wf : DotDims.WF S50000x512 S512x32 S50000x32 [1] [0] [0] [1] [] []
  dot_S50000x8x4_S50000x4x64_S50000x8x64_2_1_1_2_0_0_wf : DotDims.WF S50000x8x4 S50000x4x64 S50000x8x64 [2] [1] [1] [2] [0] [0]
  dot_S50000x512_S512x512_S50000x512_1_0_0_1_n_n_wf : DotDims.WF S50000x512 S512x512 S50000x512 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x512_S512x32_S50000x32_1_0_0_1_n_n : DotDims S50000x512 S512x32 S50000x32 where
  lhsContracting := [1]
  rhsContracting := [0]
  lhsNonContracting := [0]
  rhsNonContracting := [1]
  lhsBatch := []
  rhsBatch := []
  wf := dot_S50000x512_S512x32_S50000x32_1_0_0_1_n_n_wf
def dot_S50000x8x4_S50000x4x64_S50000x8x64_2_1_1_2_0_0 : DotDims S50000x8x4 S50000x4x64 S50000x8x64 where
  lhsContracting := [2]
  rhsContracting := [1]
  lhsNonContracting := [1]
  rhsNonContracting := [2]
  lhsBatch := [0]
  rhsBatch := [0]
  wf := dot_S50000x8x4_S50000x4x64_S50000x8x64_2_1_1_2_0_0_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.KRun.lean ====
/-
  The idealized kernel's run with its result named. From any memory with zero counters every weakly fair execution of the
  program terminates without a fault; in the final state the result array holds what the fold of the program's segments
  leaves there — the second region's output array, block by block, from the arrays the second region is entered with —
  and the ten argument arrays are as launched. Same launch argument as the frame: the segments' chain, the last thread
  state read against the final state, with the result buffer read beside the arguments.
-/
import proofs.«151256_j76828374991621_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faults; the result array ends at the last boundary's contents and the
    arguments as launched. -/
theorem run_out : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KRun

end
-- ==== Proof.Spec.lean ====
/-
  The mathematics of the layer, stated once, index by index, over the extended reals.

  Three dense projections of the node features x (50000 × 512): x · W_bases (50000 × 256), x · W_comb + b_comb
  (50000 × 32) and x · W_res + b_res (50000 × 512), each entry a sum over the 512 input features. The symmetric-normalised
  neighbourhood aggregation of the 256 basis columns over the edge list with self loops (degree by scatter-add of ones,
  deg^(-1/2) where the degree is positive, the two gathered factors multiplied, the gathered basis rows scaled and
  scatter-added at the edge's target) is carried as ONE function aggOf of the edge table and the basis array: both
  programs apply exactly these host operations, so no proof ever opens it. Then, row by row: head h = j / 64, feature
  f = j % 64, the combination Σ_{k<4} comb(r, 4h+k) · agg(r, 64k+f), plus the output bias and the residual row; the
  row mean and the mean of squared deviations over the 512 columns (each a sum divided by the word 512.0), the
  deviation times (var + ε)^(-1/2) times γ plus β, and the positive part.
-/
import proofs.«151256_j76828374991621_2_alg».proof.KernelIdeal
import Idealize.ShloMosaic.PureOps.Ideal
import Idealize.ShloMosaic.Lib.ValueIdx

noncomputable section

open scoped BigOperators

namespace Cert.EG

open Idealize.ShloMosaic Idealize.ShloMosaic.ValueIdx
open Cert.KernelIdeal

section StageB

variable {F : FTy → Type} [FloatOps F] [Facts₀]
open Facts₀

/-- Row 0 of the edge table (the sources) followed by the self loops 0 … 49999. -/
def srcOf (e : (⟨S2x800000, .i32⟩ : BufTy).Contents (Elt F)) : (⟨S850000, .i32⟩ : BufTy).Contents (Elt F) :=
  concatenate S850000 0
    [⟨S800000, shapeCast S800000 (extractStridedSlice S1x800000 ![0, 0] e slices_S2x800000_S1x800000_0_0) shapeCasts_S1x800000_S800000⟩,
     ⟨S50000, iotaInDim S50000 32 0⟩] concatenates_S800000_S50000_S850000_d0

/-- Row 1 of the edge table (the targets) followed by the self loops 0 … 49999. -/
def dstOf (e : (⟨S2x800000, .i32⟩ : BufTy).Contents (Elt F)) : (⟨S850000, .i32⟩ : BufTy).Contents (Elt F) :=
  concatenate S850000 0
    [⟨S800000, shapeCast S800000 (extractStridedSlice S1x800000 ![1, 0] e slices_S2x800000_S1x800000_1_0) shapeCasts_S1x800000_S800000⟩,
     ⟨S50000, iotaInDim S50000 32 0⟩] concatenates_S800000_S50000_S850000_d0

/-- A node list as a column of gather indices: a negative entry wrapped by the node count, as numpy indexing does. -/
def wrapIdx (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The in-degree with self loops: ones scatter-added at the targets. -/
def degOf (d : (⟨S850000, .i32⟩ : BufTy).Contents (Elt F)) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- deg^(-1/2) where the degree is positive, else zero. -/
def dinvOf (d : (⟨S850000, .i32⟩ : BufTy).Contents (Elt F)) : FVec F S50000 .f32 :=
  select (cmpf .ogt (degOf d) (broadcastInDim S50000 ![] bcast_S_S50000 (constant S_ .f32 0x00000000#32)))
    (Host.rsqrt (maximumf (degOf d) (broadcastInDim S50000 ![] bcast_S_S50000 (constant S_ .f32 0x3F800000#32))))
    (broadcastInDim S50000 ![] bcast_S_S50000 (id (constant S_ .f32 0x00000000#32)))

/-- The edge weights dinv[src] · dinv[dst]. -/
def normOf (e : (⟨S2x800000, .i32⟩ : BufTy).Contents (Elt F)) : FVec F S850000 .f32 :=
  mulf (Host.gather gather_S50000_S850000x1_S850000_n_0_n_n_0_1_1 (dinvOf (dstOf e)) (wrapIdx (srcOf e)))
    (Host.gather gather_S50000_S850000x1_S850000_n_0_n_n_0_1_1 (dinvOf (dstOf e)) (wrapIdx (dstOf e)))

/-- The symmetric-normalised aggregation of the basis rows over the edges with self loops. -/
def aggOf (e : (⟨S2x800000, .i32⟩ : BufTy).Contents (Elt F)) (bases : FVec F S50000x256 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 (dstOf e))
    (mulf (Host.gather gather_S50000x256_S850000x1_S850000x256_1_0_n_n_0_1_1256 bases (wrapIdx (srcOf e)))
      (broadcastInDim S850000x256 ![0, 1] bcast_S850000x1_S850000x256_0_1
        (broadcastInDim S850000x1 ![0] bcast_S850000_S850000x1_0 (normOf e))))

end StageB

/-! ## The dense parts, index by index -/

/-- Entry (r, c) of a product: the sum over the shared axis. -/
def projAt {N K M : Nat} (x : (⟨2, ![N, K]⟩ : Shape).Idx → EReal) (w : (⟨2, ![K, M]⟩ : Shape).Idx → EReal)
    (r : Fin N) (c : Fin M) : EReal :=
  ∑ k : Fin K, x (ix2 r k) * w (ix2 k c)

/-- x · W. -/
def proj {N K M : Nat} (x : (⟨2, ![N, K]⟩ : Shape).Idx → EReal) (w : (⟨2, ![K, M]⟩ : Shape).Idx → EReal) :
    (⟨2, ![N, M]⟩ : Shape).Idx → EReal :=
  fun i => projAt x w (i 0) (i 1)

/-- x · W + b, the bias along the columns. -/
def projBias {N K M : Nat} (x : (⟨2, ![N, K]⟩ : Shape).Idx → EReal) (w : (⟨2, ![K, M]⟩ : Shape).Idx → EReal)
    (b : (⟨1, ![M]⟩ : Shape).Idx → EReal) : (⟨2, ![N, M]⟩ : Shape).Idx → EReal :=
  fun i => projAt x w (i 0) (i 1) + b (ix1 (i 1))

/-- A one-row matrix [1, n] as the vector of its entries. -/
def rowOf {n : Nat} (a : (⟨2, ![1, n]⟩ : Shape).Idx → EReal) : (⟨1, ![n]⟩ : Shape).Idx → EReal :=
  fun i => a (ix2 (0 : Fin 1) (i 0))

/-- The word 512.0. -/
abbrev c512 : EReal := Ideal.ofBits .f32 0x44000000#32
/-- The word of 1e-5 rounded to f32. -/
abbrev cEps : EReal := Ideal.ofBits .f32 0x3727C5AC#32
/-- The zero word. -/
abbrev cZero : EReal := Ideal.ofBits .f32 0x00000000#32

section Rows

variable (comb : (⟨2, ![50000, 32]⟩ : Shape).Idx → EReal) (agg : (⟨2, ![50000, 256]⟩ : Shape).Idx → EReal)
  (res : (⟨2, ![50000, 512]⟩ : Shape).Idx → EReal)
  (cb g b : (⟨1, ![512]⟩ : Shape).Idx → EReal)

/-- Column j = 64 h + f of the per-head combination at row r: Σ_{k<4} comb(r, 4h+k) · agg(r, 64k+f). -/
def convAt (r : Fin 50000) (j : Fin 512) : EReal :=
  ∑ k : Fin 4, comb (ix2 r (⟨4 * (j.val / 64) + k.val, by omega⟩ : Fin 32))
    * agg (ix2 r (⟨64 * k.val + j.val % 64, by omega⟩ : Fin 256))

/-- Combination plus output bias plus residual. -/
def preAt (r : Fin 50000) (j : Fin 512) : EReal :=
  (convAt comb agg r j + cb (ix1 j)) + res (ix2 r j)

/-- The row mean. -/
def muAt (r : Fin 50000) : EReal :=
  Ideal.div (∑ j : Fin 512, preAt comb agg res cb r j) c512

/-- The deviation from the row mean. -/
def devAt (r : Fin 50000) (j : Fin 512) : EReal :=
  preAt comb agg res cb r j - muAt comb agg res cb r

/-- The mean of the squared deviations. -/
def varAt (r : Fin 50000) : EReal :=
  Ideal.div (∑ j : Fin 512, devAt comb agg res cb r j * devAt comb agg res cb r j) c512

/-- The normalised, scaled, shifted and clipped entry. -/
def lnAt (r : Fin 50000) (j : Fin 512) : EReal :=
  max (devAt comb agg res cb r j * Ideal.rsqrt (varAt comb agg res cb r + cEps) * g (ix1 j) + b (ix1 j)) cZero

/-- The layer's output array. -/
def lnOut : (⟨2, ![50000, 512]⟩ : Shape).Idx → EReal :=
  fun i => lnAt comb agg res cb g b (i 0) (i 1)

end Rows

/-- The whole layer as a function of the ten arguments. -/
def layer [Facts₀] (x : (⟨2, ![50000, 512]⟩ : Shape).Idx → EReal) (e : (⟨S2x800000, .i32⟩ : BufTy).Contents (Elt Ideal))
    (wb : (⟨2, ![512, 256]⟩ : Shape).Idx → EReal) (wc : (⟨2, ![512, 32]⟩ : Shape).Idx → EReal)
    (bc : (⟨1, ![32]⟩ : Shape).Idx → EReal) (cb : (⟨1, ![512]⟩ : Shape).Idx → EReal)
    (wr : (⟨2, ![512, 512]⟩ : Shape).Idx → EReal) (br g b : (⟨1, ![512]⟩ : Shape).Idx → EReal) :
    (⟨2, ![50000, 512]⟩ : Shape).Idx → EReal :=
  lnOut (projBias x wc bc) (aggOf (F := Ideal) e (proj x wb)) (projBias x wr br) cb g b

end Cert.EG

end
-- ==== Proof.KHost.lean ====
/-
  The host operations around the two regions, read as values. Before the first region: the three weight matrices change
  float format (the identity on extended reals) and two bias vectors are laid out as one-row matrices. Between the
  regions: the aggregation of the basis array over the edge list — carried whole as the one function aggOf of the edge
  table and the basis array — and three more vectors laid out as rows; the other two outputs of the first region pass
  through untouched.
-/
import proofs.«151256_j76828374991621_2_alg».proof.Proof.Gen.KernelIdeal.Frame
import proofs.«151256_j76828374991621_2_alg».proof.Proof.Spec
import Idealize.ShloMosaic.Lib.StableHlo.Run

set_option maxRecDepth 16384

noncomputable section

namespace Cert.KernelIdeal.KHost

open Idealize.ShloMosaic Idealize.ShloMosaic.TcCoe Idealize.ShloMosaic.StableHlo
open Cert.KernelIdeal Cert.KernelIdeal.Gen Cert.EG

variable {F : FTy → Type} [FloatOps F]
open Facts₀

/-- The stretch between the regions leaves, in the aggregate's buffer, aggOf of the edge table and the basis array. -/
theorem agg_read (W : Valuation τ sig (Elt F)) :
    after hostOps1_2 (after hostOps1_1 (after hostOps1 W)) (Proc.devRef .tc main_v50)
      = aggOf (W (Proc.devRef .tc main_arg1)) (W (Proc.devRef .tc main_v5_0)) := by
  dsimp only [hostOps1, hostOps1_1, hostOps1_2]
  after_results_simp
  try rfl

/-- The combination weights pass through the stretch between the regions. -/
theorem comb_read (W : Valuation τ sig (Elt F)) :
    after hostOps1_2 (after hostOps1_1 (after hostOps1 W)) (Proc.devRef .tc main_v5_1) = W (Proc.devRef .tc main_v5_1) := by
  dsimp only [hostOps1, hostOps1_1, hostOps1_2]
  after_results_simp

/-- The residual rows pass through the stretch between the regions. -/
theorem res_read (W : Valuation τ sig (Elt F)) :
    after hostOps1_2 (after hostOps1_1 (after hostOps1 W)) (Proc.devRef .tc main_v5_2) = W (Proc.devRef .tc main_v5_2) := by
  dsimp only [hostOps1, hostOps1_1, hostOps1_2]
  after_results_simp

/-- The output bias laid out as a row. -/
theorem cb_read (W : Valuation τ sig (Elt F)) :
    after hostOps1_2 (after hostOps1_1 (after hostOps1 W)) (Proc.devRef .tc main_v51)
      = shapeCast S1x512 (W (Proc.devRef .tc main_arg5)) Facts₀.shapeCasts_S512_S1x512 := by
  dsimp only [hostOps1, hostOps1_1, hostOps1_2]
  after_results_simp
  try rfl

/-- The scale laid out as a row. -/
theorem gamma_read (W : Valuation τ sig (Elt F)) :
    after hostOps1_2 (after hostOps1_1 (after hostOps1 W)) (Proc.devRef .tc main_v52)
      = shapeCast S1x512 (W (Proc.devRef .tc main_arg8)) Facts₀.shapeCasts_S512_S1x512 := by
  dsimp only [hostOps1, hostOps1_1, hostOps1_2]
  after_results_simp
  try rfl

/-- The shift laid out as a row. -/
theorem beta_read (W : Valuation τ sig (Elt F)) :
    after hostOps1_2 (after hostOps1_1 (after hostOps1 W)) (Proc.devRef .tc main_v53)
      = shapeCast S1x512 (W (Proc.devRef .tc main_arg9)) Facts₀.shapeCasts_S512_S1x512 := by
  dsimp only [hostOps1, hostOps1_1, hostOps1_2]
  after_results_simp
  try rfl

/-! ## Before the first region -/

theorem wb_read (W : Valuation τ sig (Elt F)) :
    after hostOps0 W (Proc.devRef .tc main_v0) = truncf .bf16 (W (Proc.devRef .tc main_arg2)) Facts₀.bitsLt_bf16_f32 := by
  dsimp only [hostOps0]
  after_results_simp
  try rfl

theorem wc_read (W : Valuation τ sig (Elt F)) :
    after hostOps0 W (Proc.devRef .tc main_v1) = truncf .bf16 (W (Proc.devRef .tc main_arg3)) Facts₀.bitsLt_bf16_f32 := by
  dsimp only [hostOps0]
  after_results_simp
  try rfl

theorem wr_read (W : Valuation τ sig (Elt F)) :
    after hostOps0 W (Proc.devRef .tc main_v2) = truncf .bf16 (W (Proc.devRef .tc main_arg6)) Facts₀.bitsLt_bf16_f32 := by
  dsimp only [hostOps0]
  after_results_simp
  try rfl

theorem bc_read (W : Valuation τ sig (Elt F)) :
    after hostOps0 W (Proc.devRef .tc main_v3) = shapeCast S1x32 (W (Proc.devRef .tc main_arg4)) Facts₀.shapeCasts_S32_S1x32 := by
  dsimp only [hostOps0]
  after_results_simp
  try rfl

theorem br_read (W : Valuation τ sig (Elt F)) :
    after hostOps0 W (Proc.devRef .tc main_v4) = shapeCast S1x512 (W (Proc.devRef .tc main_arg7)) Facts₀.shapeCasts_S512_S1x512 := by
  dsimp only [hostOps0]
  after_results_simp
  try rfl

theorem x_read (W : Valuation τ sig (Elt F)) :
    after hostOps0 W (Proc.devRef .tc main_arg0) = W (Proc.devRef .tc main_arg0) := by
  dsimp only [hostOps0]
  after_results_simp

theorem e_read (W : Valuation τ sig (Elt F)) :
    after hostOps0 W (Proc.devRef .tc main_arg1) = W (Proc.devRef .tc main_arg1) := by
  dsimp only [hostOps0]
  after_results_simp

theorem cb0_read (W : Valuation τ sig (Elt F)) :
    after hostOps0 W (Proc.devRef .tc main_arg5) = W (Proc.devRef .tc main_arg5) := by
  dsimp only [hostOps0]
  after_results_simp

theorem g0_read (W : Valuation τ sig (Elt F)) :
    after hostOps0 W (Proc.devRef .tc main_arg8) = W (Proc.devRef .tc main_arg8) := by
  dsimp only [hostOps0]
  after_results_simp

theorem b0_read (W : Valuation τ sig (Elt F)) :
    after hostOps0 W (Proc.devRef .tc main_arg9) = W (Proc.devRef .tc main_arg9) := by
  dsimp only [hostOps0]
  after_results_simp

end Cert.KernelIdeal.KHost

end
-- ==== Proof.LibRowCast.lean ====
/-
  A vector of length n and the row [1, n] that holds the same elements: a shape cast between the two keeps every
  element's row-major position, which is j for the vector's element j and 0 · n + j for the row's element (0, j).
  So the cast to a row reads the vector at the column coordinate, and the cast back reads the row at (0, j).
-/
import Idealize.ShloMosaic.Lib.ValueIdx
import Idealize.ShloMosaic.Lib.Pipeline.Value
import Idealize.ShloMosaic.Lib.ValueLayout

namespace Idealize.ShloMosaic.RowCast

open Idealize.ShloMosaic Idealize.ShloMosaic.ValueIdx

/-- A vector of length n cast to a row [1, n] reads, at (u, j), the vector at j, whatever the unit coordinate u:
    the row-major positions are u · n + j with u = 0, and j. -/
theorem shapeCast_row_apply {α : Type} {n : ℕ} (x : (⟨1, ![n]⟩ : Shape).Idx → α)
    (h : (⟨1, ![n]⟩ : Shape).ShapeCasts (⟨2, ![1, n]⟩ : Shape)) (u : Fin 1) (j : Fin n) :
    shapeCast (⟨2, ![1, n]⟩ : Shape) x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-- A row [1, n] cast to a vector of length n reads, at j, the row at (0, j): the row-major positions are
    0 · n + j and j. -/
theorem shapeCast_unrow_apply {α : Type} {n : ℕ} (x : (⟨2, ![1, n]⟩ : Shape).Idx → α)
    (h : (⟨2, ![1, n]⟩ : Shape).ShapeCasts (⟨1, ![n]⟩ : Shape)) (j : Fin n) :
    shapeCast (⟨1, ![n]⟩ : Shape) x h (ix1 j) = x (ix2 (0 : Fin 1) j) :=
  shapeCast_apply x h _ _ (by
    rw [Shape.rowMajor_val_two, Shape.rowMajor_val_one]
    show (0 : ℕ) * n + j.val = j.val
    rw [Nat.zero_mul, Nat.zero_add])

end Idealize.ShloMosaic.RowCast
-- ==== Proof.KValue.lean ====
/-
  The idealized kernel's result array as the layer's function of the ten arguments.

  The fold of the program's segments, read backwards from the result buffer: the second region's output array is, row
  by row, the combination / residual / normalisation / positive part of the arrays it is entered with; of those, the
  aggregate is aggOf of the edge table and the first region's basis output, the combination weights and the residual are
  the first region's other two outputs, and the three rows are the bias, scale and shift vectors; the first region's
  outputs are the three products of the feature matrix with the weight matrices (a change of float format is the
  identity on extended reals; a vector laid out as a one-row matrix and read back is the vector). The two regions'
  block-by-block facts enter as hypotheses, stated for any entry contents.
-/
import proofs.«151256_j76828374991621_2_alg».proof.Proof.KHost
import proofs.«151256_j76828374991621_2_alg».proof.Proof.LibRowCast
import Idealize.ShloMosaic.Lib.Pipeline.Value

set_option maxRecDepth 16384

noncomputable section

namespace Cert.KernelIdeal.KValue

open Idealize.ShloMosaic Idealize.ShloMosaic.TcCoe Idealize.ShloMosaic.StableHlo Idealize.ShloMosaic.ValueIdx Idealize.SL.Sem
open Cert.KernelIdeal Cert.KernelIdeal.Gen Cert.EG

/-- A vector laid out as a one-row matrix and read back as a vector is the vector. -/
theorem rowOf_cast {n : ℕ} (v : (⟨1, ![n]⟩ : Shape).Idx → EReal)
    (h : (⟨1, ![n]⟩ : Shape).ShapeCasts (⟨2, ![1, n]⟩ : Shape)) :
    rowOf (shapeCast (⟨2, ![1, n]⟩ : Shape) v h) = v := by
  funext i
  obtain ⟨j, rfl⟩ : ∃ j : Fin n, i = ix1 j := ⟨i 0, eq_ix1 i⟩
  exact RowCast.shapeCast_row_apply v h 0 j

/-- A change of float format is the identity on extended reals. -/
theorem truncf_id {s : Shape} (w : FVec Ideal s .f32) (h : FTy.bf16.bits < FTy.f32.bits) :
    (truncf .bf16 w h : FVec Ideal s .bf16) = w := funext fun _ => rfl

variable (m : (ℓ : Loc nD τ sig) → Buf (Elt Ideal) ℓ) (ρ : Dev nD → PrngReg)

/-- The entry contents of a region, as a type. -/
abbrev Entry := (c : Dev nD) → (b : Ref sig .tc) → Buf (Elt Ideal) ((c : Thread nD τ).loc b)

set_option backward.isDefEq.respectTransparency.types false in
theorem value_of
    (H1 : ∀ (V : Entry) (c : Dev nD),
      ((dat1 (F := Ideal) V c).arrAt 6 cfg1.N : (⟨2, ![50000, 512]⟩ : Shape).Idx → EReal)
        = lnOut (V c main_v5_1) (V c main_v50) (V c main_v5_2) (rowOf (V c main_v51)) (rowOf (V c main_v52)) (rowOf (V c main_v53)))
    (H06 : ∀ (V : Entry) (c : Dev nD),
      ((dat0 (F := Ideal) V c).arrAt 6 cfg0.N : (⟨2, ![50000, 256]⟩ : Shape).Idx → EReal) = proj (V c main_arg0) (V c main_v0))
    (H07 : ∀ (V : Entry) (c : Dev nD),
      ((dat0 (F := Ideal) V c).arrAt 7 cfg0.N : (⟨2, ![50000, 32]⟩ : Shape).Idx → EReal)
        = projBias (V c main_arg0) (V c main_v1) (rowOf (V c main_v3)))
    (H08 : ∀ (V : Entry) (c : Dev nD),
      ((dat0 (F := Ideal) V c).arrAt 8 cfg0.N : (⟨2, ![50000, 512]⟩ : Shape).Idx → EReal)
        = projBias (V c main_arg0) (V c main_v2) (rowOf (V c main_v4)))
    (c : Dev nD) :
    (W6 m ρ c (Proc.devRef .tc main_v54) : (⟨2, ![50000, 512]⟩ : Shape).Idx → EReal)
      = layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  show (W6 m ρ c (Proc.devRef .tc main_v54) : (⟨2, ![50000, 512]⟩ : Shape).Idx → EReal)
      = layer (W0 m ρ c (Proc.devRef .tc main_arg0)) (W0 m ρ c (Proc.devRef .tc main_arg1))
          (W0 m ρ c (Proc.devRef .tc main_arg2)) (W0 m ρ c (Proc.devRef .tc main_arg3))
          (W0 m ρ c (Proc.devRef .tc main_arg4)) (W0 m ρ c (Proc.devRef .tc main_arg5))
          (W0 m ρ c (Proc.devRef .tc main_arg6)) (W0 m ρ c (Proc.devRef .tc main_arg7))
          (W0 m ρ c (Proc.devRef .tc main_arg8)) (W0 m ρ c (Proc.devRef .tc main_arg9))
  -- the first region's entry contents at the buffers it reads
  have x1 : V1 m ρ c main_arg0 = W0 m ρ c (Proc.devRef .tc main_arg0) := KHost.x_read (W0 m ρ c)
  have wb1 : V1 m ρ c main_v0 = _ := KHost.wb_read (W0 m ρ c)
  have wc1 : V1 m ρ c main_v1 = _ := KHost.wc_read (W0 m ρ c)
  have wr1 : V1 m ρ c main_v2 = _ := KHost.wr_read (W0 m ρ c)
  have bc1 : V1 m ρ c main_v3 = _ := KHost.bc_read (W0 m ρ c)
  have br1 : V1 m ρ c main_v4 = _ := KHost.br_read (W0 m ρ c)
  -- the first region's three outputs
  have bases : W2 m ρ c (Proc.devRef .tc main_v5_0)
      = proj (W0 m ρ c (Proc.devRef .tc main_arg0)) (W0 m ρ c (Proc.devRef .tc main_arg2)) := by
    refine (W2_arr m ρ c 6).trans ?_
    rw [H06, x1, wb1, truncf_id]
  have comb : W2 m ρ c (Proc.devRef .tc main_v5_1)
      = projBias (W0 m ρ c (Proc.devRef .tc main_arg0)) (W0 m ρ c (Proc.devRef .tc main_arg3)) (W0 m ρ c (Proc.devRef .tc main_arg4)) := by
    refine (W2_arr m ρ c 7).trans ?_
    rw [H07, x1, wc1, bc1, truncf_id, rowOf_cast]
  have res : W2 m ρ c (Proc.devRef .tc main_v5_2)
      = projBias (W0 m ρ c (Proc.devRef .tc main_arg0)) (W0 m ρ c (Proc.devRef .tc main_arg6)) (W0 m ρ c (Proc.devRef .tc main_arg7)) := by
    refine (W2_arr m ρ c 8).trans ?_
    rw [H08, x1, wr1, br1, truncf_id, rowOf_cast]
  -- the arguments the stretch between the regions reads: untouched by the first region and by the operations before it
  have e2 : W2 m ρ c (Proc.devRef .tc main_arg1) = W0 m ρ c (Proc.devRef .tc main_arg1) :=
    (W2_of_ne m ρ c main_arg1 (by decide)).trans (KHost.e_read (W0 m ρ c))
  have cb2 : W2 m ρ c (Proc.devRef .tc main_arg5) = W0 m ρ c (Proc.devRef .tc main_arg5) :=
    (W2_of_ne m ρ c main_arg5 (by decide)).trans (KHost.cb0_read (W0 m ρ c))
  have g2 : W2 m ρ c (Proc.devRef .tc main_arg8) = W0 m ρ c (Proc.devRef .tc main_arg8) :=
    (W2_of_ne m ρ c main_arg8 (by decide)).trans (KHost.g0_read (W0 m ρ c))
  have b2 : W2 m ρ c (Proc.devRef .tc main_arg9) = W0 m ρ c (Proc.devRef .tc main_arg9) :=
    (W2_of_ne m ρ c main_arg9 (by decide)).trans (KHost.b0_read (W0 m ρ c))
  -- the second region's entry contents
  have a5 : V5 m ρ c main_v50 = aggOf (W0 m ρ c (Proc.devRef .tc main_arg1))
      (proj (W0 m ρ c (Proc.devRef .tc main_arg0)) (W0 m ρ c (Proc.devRef .tc main_arg2))) := by
    refine (KHost.agg_read (W2 m ρ c)).trans ?_
    rw [e2, bases]
  have c5 : V5 m ρ c main_v5_1 = projBias (W0 m ρ c (Proc.devRef .tc main_arg0)) (W0 m ρ c (Proc.devRef .tc main_arg3)) (W0 m ρ c (Proc.devRef .tc main_arg4)) :=
    (KHost.comb_read (W2 m ρ c)).trans comb
  have r5 : V5 m ρ c main_v5_2 = projBias (W0 m ρ c (Proc.devRef .tc main_arg0)) (W0 m ρ c (Proc.devRef .tc main_arg6)) (W0 m ρ c (Proc.devRef .tc main_arg7)) :=
    (KHost.res_read (W2 m ρ c)).trans res
  have cb5 : V5 m ρ c main_v51 = _ := (KHost.cb_read (W2 m ρ c)).trans (by rw [cb2])
  have g5 : V5 m ρ c main_v52 = _ := (KHost.gamma_read (W2 m ρ c)).trans (by rw [g2])
  have b5 : V5 m ρ c main_v53 = _ := (KHost.beta_read (W2 m ρ c)).trans (by rw [b2])
  refine (W6_arr m ρ c 6).trans ?_
  rw [H1, a5, c5, r5, cb5, g5, b5, rowOf_cast, rowOf_cast, rowOf_cast]
  rfl

end Cert.KernelIdeal.KValue

end
-- ==== Proof.K0Blocks.lean ====
/-
  The first region's windows, block by block.

  The grid has 25 points; at point t the node-feature window holds rows 2000·t … 2000·t + 1999 of x (all 512
  columns), each of the five weight and bias windows holds its whole array, and each of the three output windows
  holds rows 2000·t … 2000·t + 1999 of its array. The block indices are decided once over the grid; an element
  of a block sits in the array at block index × block extent + its coordinate inside the block, axis by axis.
-/
import proofs.«151256_j76828374991621_2_alg».proof.Proof.Gen.KernelIdeal.Frame
import Idealize.ShloMosaic.Lib.Pipeline.Value
import Idealize.ShloMosaic.PureOps.Ideal

noncomputable section

namespace Cert.KernelIdeal.KV0

open Cert.KernelIdeal Cert.KernelIdeal.Gen Idealize.ShloMosaic
open Idealize.ShloMosaic.TcCoe

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The block indices at point t: t along the rows for x and the three outputs, 0 everywhere else. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Entry (y₀, y₁) of the x block at point t is x(2000·t + y₀, y₁). -/
theorem xblk_apply (c : Dev nD) (t : Fin cfg0.N) (y : S2000x512.Idx) (i : S50000x512.Idx)
    (h0 : (i 0).val = 2000 * t.val + (y 0).val) (h1 : (i 1).val = (y 1).val) :
    (iblk0 (F := Ideal) V c 0 t : Vec Ideal S2000x512 .f32) y = (V c main_arg0 : S50000x512.Idx → EReal) i := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The W_bases block is the whole of W_bases. -/
theorem wblk1_eq (c : Dev nD) (t : Fin cfg0.N) :
    (iblk0 (F := Ideal) V c 1 t : Vec Ideal S512x256 .bf16) = (V c main_v0 : S512x256.Idx → EReal) := by
  obtain ⟨-, -, e0, e1, -⟩ := idx_facts t
  funext y
  unfold iblk0
  rw [View.read_apply]
  show V c main_v0 _ = V c main_v0 _
  congr 1
  funext a; apply Fin.ext
  match a with
  | ⟨0, _⟩ => show win0_1.index t (0 : Fin 2) * 512 + 1 * (y 0).val = (y 0).val; rw [e0]; omega
  | ⟨1, _⟩ => show win0_1.index t (1 : Fin 2) * 256 + 1 * (y 1).val = (y 1).val; rw [e1]; omega

/-- The W_comb block is the whole of W_comb. -/
theorem wblk2_eq (c : Dev nD) (t : Fin cfg0.N) :
    (iblk0 (F := Ideal) V c 2 t : Vec Ideal S512x32 .bf16) = (V c main_v1 : S512x32.Idx → EReal) := by
  obtain ⟨-, -, -, -, e0, e1, -⟩ := idx_facts t
  funext y
  unfold iblk0
  rw [View.read_apply]
  show V c main_v1 _ = V c main_v1 _
  congr 1
  funext a; apply Fin.ext
  match a with
  | ⟨0, _⟩ => show win0_2.index t (0 : Fin 2) * 512 + 1 * (y 0).val = (y 0).val; rw [e0]; omega
  | ⟨1, _⟩ => show win0_2.index t (1 : Fin 2) * 32 + 1 * (y 1).val = (y 1).val; rw [e1]; omega

/-- The b_comb block is the whole one-row bias. -/
theorem bblk3_eq (c : Dev nD) (t : Fin cfg0.N) :
    (iblk0 (F := Ideal) V c 3 t : Vec Ideal S1x32 .f32) = (V c main_v3 : S1x32.Idx → EReal) := by
  obtain ⟨-, -, -, -, -, -, e0, e1, -⟩ := idx_facts t
  funext y
  unfold iblk0
  rw [View.read_apply]
  show V c main_v3 _ = V c main_v3 _
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega

/-- The W_res block is the whole of W_res. -/
theorem wblk4_eq (c : Dev nD) (t : Fin cfg0.N) :
    (iblk0 (F := Ideal) V c 4 t : Vec Ideal S512x512 .bf16) = (V c main_v2 : S512x512.Idx → EReal) := by
  obtain ⟨-, -, -, -, -, -, -, -, e0, e1, -⟩ := idx_facts t
  funext y
  unfold iblk0
  rw [View.read_apply]
  show V c main_v2 _ = V c main_v2 _
  congr 1
  funext a; apply Fin.ext
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega

/-- The b_res block is the whole one-row bias. -/
theorem bblk5_eq (c : Dev nD) (t : Fin cfg0.N) :
    (iblk0 (F := Ideal) V c 5 t : Vec Ideal S1x512 .f32) = (V c main_v4 : S1x512.Idx → EReal) := by
  obtain ⟨-, -, -, -, -, -, -, -, -, -, e0, e1, -⟩ := idx_facts t
  funext y
  unfold iblk0
  rw [View.read_apply]
  show V c main_v4 _ = V c main_v4 _
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 512 + 1 * (y 1).val = (y 1).val; rw [e1]; omega

end Cert.KernelIdeal.KV0

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.K0Pay.lean ====
/-
  The three dense projections, one row block at a time, read at an entry.

  A block of 2000 rows of x against a whole weight matrix: entry (r, q) of the product accumulated into the zero
  splat is the sum over the 512 shared features of x(r, k) · W(k, q) (the change of float format of x is the
  identity on the extended reals, the same-shape cast of W is the identity); the two biased projections add the
  bias row's entry q.
-/
import proofs.«151256_j76828374991621_2_alg».proof.Proof.Gen.KernelIdeal.Skeleton
import proofs.«151256_j76828374991621_2_alg».proof.Proof.LibPlainProduct
import Idealize.ShloMosaic.Lib.Pipeline.Value
import Idealize.ShloMosaic.Lib.ValueLayout

noncomputable section

open scoped BigOperators

namespace Cert.KernelIdeal.KV0

open Cert.KernelIdeal Cert.KernelIdeal.Gen Idealize.ShloMosaic Idealize.ShloMosaic.ValueIdx

/-- x_block · W_bases at (r, q). -/
theorem pay2_apply (x0 : Vec Ideal S2000x512 .f32) (w : Vec Ideal S512x256 .bf16) (r : Fin 2000) (q : Fin 256) :
    k0_pay2 x0 w (ix2 r q) = ∑ k : Fin 512, x0 (ix2 r k) * w (ix2 k q) := by
  unfold k0_pay2 k0_pay1
  rw [shapeCast_self]
  refine (Cert.LibPlainProduct.matmul_zero_plain_apply (M := 2000) (K := 512) (N := 256)
    dot_S2000x512_S512x256_S2000x256_1_0_0_1_n_n.wf none (truncf FTy.bf16 x0 bitsLt_bf16_f32) w r q).trans ?_
  rfl

/-- x_block · W_comb + b_comb at (r, q). -/
theorem pay3_apply (x0 : Vec Ideal S2000x512 .f32) (w : Vec Ideal S512x32 .bf16) (b : Vec Ideal S1x32 .f32)
    (r : Fin 2000) (q : Fin 32) :
    k0_pay3 x0 w b (ix2 r q) = (∑ k : Fin 512, x0 (ix2 r k) * w (ix2 k q)) + b (ix2 (0 : Fin 1) q) := by
  unfold k0_pay3 k0_pay1
  rw [shapeCast_self, shapeCast_self]
  refine (addf_apply _ _ _).trans ?_
  refine congrArg₂ (· + ·) ?_ ?_
  · refine (Cert.LibPlainProduct.matmul_zero_plain_apply (M := 2000) (K := 512) (N := 32)
      dot_S2000x512_S512x32_S2000x32_1_0_0_1_n_n.wf none (truncf FTy.bf16 x0 bitsLt_bf16_f32) w r q).trans ?_
    rfl
  · exact broadcastTo_1b_ab_apply (a := 2000) (b := 32) b broadcasts_S1x32_S2000x32 r q

/-- x_block · W_res + b_res at (r, q). -/
theorem pay4_apply (x0 : Vec Ideal S2000x512 .f32) (w : Vec Ideal S512x512 .bf16) (b : Vec Ideal S1x512 .f32)
    (r : Fin 2000) (q : Fin 512) :
    k0_pay4 x0 w b (ix2 r q) = (∑ k : Fin 512, x0 (ix2 r k) * w (ix2 k q)) + b (ix2 (0 : Fin 1) q) := by
  unfold k0_pay4 k0_pay1
  rw [shapeCast_self, shapeCast_self]
  refine (addf_apply _ _ _).trans ?_
  refine congrArg₂ (· + ·) ?_ ?_
  · refine (Cert.LibPlainProduct.matmul_zero_plain_apply (M := 2000) (K := 512) (N := 512)
      dot_S2000x512_S512x512_S2000x512_1_0_0_1_n_n.wf none (truncf FTy.bf16 x0 bitsLt_bf16_f32) w r q).trans ?_
    rfl
  · exact broadcastTo_1b_ab_apply (a := 2000) (b := 512) b broadcasts_S1x512_S2000x512 r q

end Cert.KernelIdeal.KV0

end
-- ==== Proof.K0Value6.lean ====
/-
  The basis projection x · W_bases as the first region leaves it: the 25 row blocks of 2000 rows tile the
  50000 × 256 array, and block t is rows 2000·t … 2000·t + 1999 of the whole product.
-/
import proofs.«151256_j76828374991621_2_alg».proof.Proof.K0Blocks
import proofs.«151256_j76828374991621_2_alg».proof.Proof.K0Pay
import proofs.«151256_j76828374991621_2_alg».proof.Proof.Spec

noncomputable section

open scoped BigOperators

namespace Cert.KernelIdeal.KV0

open Cert.KernelIdeal Cert.KernelIdeal.Gen Cert.EG Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- A block of 2000 rows that is rows 2000·t … of X, against the whole W: entry j of the block's product is entry
    (2000·t + j₀, j₁) of the whole product. -/
theorem row6 (X : S50000x512.Idx → EReal) (W : S512x256.Idx → EReal)
    (x0 : Vec Ideal S2000x512 .f32) (t : Nat)
    (hx : ∀ (y : S2000x512.Idx) (i : S50000x512.Idx), (i 0).val = 2000 * t + (y 0).val → (i 1).val = (y 1).val → x0 y = X i)
    (j : S2000x256.Idx) (i : S50000x256.Idx) (hi0 : (i 0).val = 2000 * t + (j 0).val) (hi1 : (i 1).val = (j 1).val) :
    k0_pay2 x0 W j = proj X W i := by
  obtain ⟨r, q, rfl⟩ : ∃ (r : Fin 2000) (q : Fin 256), j = ix2 r q := ⟨j 0, j 1, eq_ix2 j⟩
  obtain ⟨a, b, rfl⟩ : ∃ (a : Fin 50000) (b : Fin 256), i = ix2 a b := ⟨i 0, i 1, eq_ix2 i⟩
  have hb : q = b := Fin.ext hi1.symm
  subst hb
  refine (pay2_apply x0 W r q).trans ?_
  show _ = ∑ k : Fin 512, X (ix2 a k) * W (ix2 k q)
  refine Finset.sum_congr rfl fun k _ => ?_
  exact congrArg (· * W (ix2 k q)) (hx (ix2 r k) (ix2 a k) hi0 rfl)

/-- What point t writes back is block t of the whole product. -/
theorem flushed6_eq (c : Dev nD) (t : Fin cfg0.N) :
    (dat0 (F := Ideal) V c).flushed 6 t
      = ((cfg0.win 6).blk t).view.read (Elt Ideal) (proj (V c main_arg0) (V c main_v0) : S50000x256.Idx → EReal) := by
  show (cfg0.win 6).cut (grid0.coords t) ((dat0 (F := Ideal) V c).after 6 t) = _
  rw [after0_6]
  unfold out0_6
  rw [View.canon_unit_zero hz]
  simp only [View.ld_unit_zero (S := S2000x512) hz, View.ld_unit_zero (S := S512x256) hz]
  rw [wblk1_eq]
  obtain ⟨-, -, -, -, -, -, -, -, -, -, -, -, e0, e1, -⟩ := idx_facts t
  funext j
  show k0_pay2 (iblk0 (F := Ideal) V c 0 t) (V c main_v0) j = proj (V c main_arg0) (V c main_v0) (((cfg0.win 6).blk t).view.emb j)
  refine row6 (V c main_arg0) (V c main_v0) (iblk0 (F := Ideal) V c 0 t) t.val
    (fun y i h0 h1 => xblk_apply V c t y i h0 h1) j (((cfg0.win 6).blk t).view.emb j) ?_ ?_
  · show win0_6.index t (0 : Fin 2) * 2000 + 1 * (j 0).val = 2000 * t.val + (j 0).val
    rw [e0]; omega
  · show win0_6.index t (1 : Fin 2) * 256 + 1 * (j 1).val = (j 1).val
    rw [e1]; omega

/-- An entry of the array is in point t's block iff each coordinate is in the block's range on its axis. -/
theorem mem_blk6 (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v5_0).slice (win0_6.rect t)).set ↔ _
  rw [View.set_slice_whole, Rect.mem_set_unit]
  exact Iff.rfl

/-- Row r is in the block of point r / 2000. -/
theorem cover6 (i : S50000x256.Idx) :
    ∃ t : Fin cfg0.N, (cfg0.win 6).flush t = true ∧ i ∈ ((cfg0.win 6).blk t).view.set := by
  have h0 : (i 0).val < 50000 := (i 0).isLt
  have h1 : (i 1).val < 256 := (i 1).isLt
  have ht : (i 0).val / 2000 < cfg0.N := by show (i 0).val / 2000 < grid0.N; rw [N_0]; omega
  obtain ⟨-, -, -, -, -, -, -, -, -, -, -, -, e0, e1, -⟩ := idx_facts ⟨(i 0).val / 2000, ht⟩
  refine ⟨⟨(i 0).val / 2000, ht⟩, flush0_6 _, ?_⟩
  rw [mem_blk6]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, ht⟩ (1 : Fin 2) * 256 ≤ (i 1).val
      ∧ (i 1).val < win0_6.index ⟨(i 0).val / 2000, ht⟩ (1 : Fin 2) * 256 + 256
    rw [e1]; omega

/-- The array after the region: the whole product. -/
theorem arr0_6 (c : Dev nD) :
    ((dat0 (F := Ideal) V c).arrAt 6 cfg0.N : (⟨2, ![50000, 256]⟩ : Shape).Idx → EReal)
      = proj (V c main_arg0) (V c main_v0) :=
  (dat0 (F := Ideal) V c).arrAt_eq_of_cover 6 (proj (V c main_arg0) (V c main_v0))
    (fun t _ => flushed6_eq V c t) cover6

end Cert.KernelIdeal.KV0

end
-- ==== Proof.K0Value7.lean ====
/-
  The combination projection x · W_comb + b_comb as the first region leaves it: the 25 row blocks of 2000 rows
  tile the 50000 × 32 array, and block t is rows 2000·t … 2000·t + 1999 of the whole biased product.
-/
import proofs.«151256_j76828374991621_2_alg».proof.Proof.K0Blocks
import proofs.«151256_j76828374991621_2_alg».proof.Proof.K0Pay
import proofs.«151256_j76828374991621_2_alg».proof.Proof.Spec

noncomputable section

open scoped BigOperators

namespace Cert.KernelIdeal.KV0

open Cert.KernelIdeal Cert.KernelIdeal.Gen Cert.EG Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- A block of 2000 rows that is rows 2000·t … of X, against the whole W: entry j of the block's product is entry
    (2000·t + j₀, j₁) of the whole product. -/
theorem row7 (X : S50000x512.Idx → EReal) (W : S512x32.Idx → EReal) (B : S1x32.Idx → EReal)
    (x0 : Vec Ideal S2000x512 .f32) (t : Nat)
    (hx : ∀ (y : S2000x512.Idx) (i : S50000x512.Idx), (i 0).val = 2000 * t + (y 0).val → (i 1).val = (y 1).val → x0 y = X i)
    (j : S2000x32.Idx) (i : S50000x32.Idx) (hi0 : (i 0).val = 2000 * t + (j 0).val) (hi1 : (i 1).val = (j 1).val) :
    k0_pay3 x0 W B j = projBias X W (rowOf B) i := by
  obtain ⟨r, q, rfl⟩ : ∃ (r : Fin 2000) (q : Fin 32), j = ix2 r q := ⟨j 0, j 1, eq_ix2 j⟩
  obtain ⟨a, b, rfl⟩ : ∃ (a : Fin 50000) (b : Fin 32), i = ix2 a b := ⟨i 0, i 1, eq_ix2 i⟩
  have hb : q = b := Fin.ext hi1.symm
  subst hb
  refine (pay3_apply x0 W B r q).trans ?_
  show _ = (∑ k : Fin 512, X (ix2 a k) * W (ix2 k q)) + B (ix2 (0 : Fin 1) q)
  refine congrArg (· + B (ix2 (0 : Fin 1) q)) (Finset.sum_congr rfl fun k _ => ?_)
  exact congrArg (· * W (ix2 k q)) (hx (ix2 r k) (ix2 a k) hi0 rfl)

/-- What point t writes back is block t of the whole product. -/
theorem flushed7_eq (c : Dev nD) (t : Fin cfg0.N) :
    (dat0 (F := Ideal) V c).flushed 7 t
      = ((cfg0.win 7).blk t).view.read (Elt Ideal) (projBias (V c main_arg0) (V c main_v1) (rowOf (V c main_v3)) : S50000x32.Idx → EReal) := by
  show (cfg0.win 7).cut (grid0.coords t) ((dat0 (F := Ideal) V c).after 7 t) = _
  rw [after0_7]
  unfold out0_7
  rw [View.canon_unit_zero hz]
  simp only [View.ld_unit_zero (S := S2000x512) hz, View.ld_unit_zero (S := S512x32) hz, View.ld_unit_zero (S := S1x32) hz]
  rw [wblk2_eq, bblk3_eq]
  obtain ⟨-, -, -, -, -, -, -, -, -, -, -, -, -, -, e0, e1, -⟩ := idx_facts t
  funext j
  show k0_pay3 (iblk0 (F := Ideal) V c 0 t) (V c main_v1) (V c main_v3) j = projBias (V c main_arg0) (V c main_v1) (rowOf (V c main_v3)) (((cfg0.win 7).blk t).view.emb j)
  refine row7 (V c main_arg0) (V c main_v1) (V c main_v3) (iblk0 (F := Ideal) V c 0 t) t.val
    (fun y i h0 h1 => xblk_apply V c t y i h0 h1) j (((cfg0.win 7).blk t).view.emb j) ?_ ?_
  · show win0_7.index t (0 : Fin 2) * 2000 + 1 * (j 0).val = 2000 * t.val + (j 0).val
    rw [e0]; omega
  · show win0_7.index t (1 : Fin 2) * 32 + 1 * (j 1).val = (j 1).val
    rw [e1]; omega

/-- An entry of the array is in point t's block iff each coordinate is in the block's range on its axis. -/
theorem mem_blk7 (t : Fin cfg0.N) (i : S50000x32.Idx) :
    i ∈ ((cfg0.win 7).blk t).view.set ↔ ∀ a : Fin 2, win0_7.index t a * S2000x32.size a ≤ (i a).val
      ∧ (i a).val < win0_7.index t a * S2000x32.size a + S2000x32.size a := by
  show i ∈ ((View.whole main_v5_1).slice (win0_7.rect t)).set ↔ _
  rw [View.set_slice_whole, Rect.mem_set_unit]
  exact Iff.rfl

/-- Row r is in the block of point r / 2000. -/
theorem cover7 (i : S50000x32.Idx) :
    ∃ t : Fin cfg0.N, (cfg0.win 7).flush t = true ∧ i ∈ ((cfg0.win 7).blk t).view.set := by
  have h0 : (i 0).val < 50000 := (i 0).isLt
  have h1 : (i 1).val < 32 := (i 1).isLt
  have ht : (i 0).val / 2000 < cfg0.N := by show (i 0).val / 2000 < grid0.N; rw [N_0]; omega
  obtain ⟨-, -, -, -, -, -, -, -, -, -, -, -, -, -, e0, e1, -⟩ := idx_facts ⟨(i 0).val / 2000, ht⟩
  refine ⟨⟨(i 0).val / 2000, ht⟩, flush0_7 _, ?_⟩
  rw [mem_blk7]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_7.index ⟨(i 0).val / 2000, ht⟩ (1 : Fin 2) * 32 ≤ (i 1).val
      ∧ (i 1).val < win0_7.index ⟨(i 0).val / 2000, ht⟩ (1 : Fin 2) * 32 + 32
    rw [e1]; omega

/-- The array after the region: the whole product. -/
theorem arr0_7 (c : Dev nD) :
    ((dat0 (F := Ideal) V c).arrAt 7 cfg0.N : (⟨2, ![50000, 32]⟩ : Shape).Idx → EReal)
      = projBias (V c main_arg0) (V c main_v1) (rowOf (V c main_v3)) :=
  (dat0 (F := Ideal) V c).arrAt_eq_of_cover 7 (projBias (V c main_arg0) (V c main_v1) (rowOf (V c main_v3)))
    (fun t _ => flushed7_eq V c t) cover7

end Cert.KernelIdeal.KV0

end
-- ==== Proof.K0Value8.lean ====
/-
  The residual projection x · W_res + b_res as the first region leaves it: the 25 row blocks of 2000 rows tile
  the 50000 × 512 array, and block t is rows 2000·t … 2000·t + 1999 of the whole biased product.
-/
import proofs.«151256_j76828374991621_2_alg».proof.Proof.K0Blocks
import proofs.«151256_j76828374991621_2_alg».proof.Proof.K0Pay
import proofs.«151256_j76828374991621_2_alg».proof.Proof.Spec

noncomputable section

open scoped BigOperators

namespace Cert.KernelIdeal.KV0

open Cert.KernelIdeal Cert.KernelIdeal.Gen Cert.EG Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- A block of 2000 rows that is rows 2000·t … of X, against the whole W: entry j of the block's product is entry
    (2000·t + j₀, j₁) of the whole product. -/
theorem row8 (X : S50000x512.Idx → EReal) (W : S512x512.Idx → EReal) (B : S1x512.Idx → EReal)
    (x0 : Vec Ideal S2000x512 .f32) (t : Nat)
    (hx : ∀ (y : S2000x512.Idx) (i : S50000x512.Idx), (i 0).val = 2000 * t + (y 0).val → (i 1).val = (y 1).val → x0 y = X i)
    (j : S2000x512.Idx) (i : S50000x512.Idx) (hi0 : (i 0).val = 2000 * t + (j 0).val) (hi1 : (i 1).val = (j 1).val) :
    k0_pay4 x0 W B j = projBias X W (rowOf B) i := by
  obtain ⟨r, q, rfl⟩ : ∃ (r : Fin 2000) (q : Fin 512), j = ix2 r q := ⟨j 0, j 1, eq_ix2 j⟩
  obtain ⟨a, b, rfl⟩ : ∃ (a : Fin 50000) (b : Fin 512), i = ix2 a b := ⟨i 0, i 1, eq_ix2 i⟩
  have hb : q = b := Fin.ext hi1.symm
  subst hb
  refine (pay4_apply x0 W B r q).trans ?_
  show _ = (∑ k : Fin 512, X (ix2 a k) * W (ix2 k q)) + B (ix2 (0 : Fin 1) q)
  refine congrArg (· + B (ix2 (0 : Fin 1) q)) (Finset.sum_congr rfl fun k _ => ?_)
  exact congrArg (· * W (ix2 k q)) (hx (ix2 r k) (ix2 a k) hi0 rfl)

/-- What point t writes back is block t of the whole product. -/
theorem flushed8_eq (c : Dev nD) (t : Fin cfg0.N) :
    (dat0 (F := Ideal) V c).flushed 8 t
      = ((cfg0.win 8).blk t).view.read (Elt Ideal) (projBias (V c main_arg0) (V c main_v2) (rowOf (V c main_v4)) : S50000x512.Idx → EReal) := by
  show (cfg0.win 8).cut (grid0.coords t) ((dat0 (F := Ideal) V c).after 8 t) = _
  rw [after0_8]
  unfold out0_8
  rw [View.canon_unit_zero hz]
  simp only [View.ld_unit_zero (S := S2000x512) hz, View.ld_unit_zero (S := S512x512) hz, View.ld_unit_zero (S := S1x512) hz]
  rw [wblk4_eq, bblk5_eq]
  obtain ⟨-, -, -, -, -, -, -, -, -, -, -, -, -, -, -, -, e0, e1⟩ := idx_facts t
  funext j
  show k0_pay4 (iblk0 (F := Ideal) V c 0 t) (V c main_v2) (V c main_v4) j = projBias (V c main_arg0) (V c main_v2) (rowOf (V c main_v4)) (((cfg0.win 8).blk t).view.emb j)
  refine row8 (V c main_arg0) (V c main_v2) (V c main_v4) (iblk0 (F := Ideal) V c 0 t) t.val
    (fun y i h0 h1 => xblk_apply V c t y i h0 h1) j (((cfg0.win 8).blk t).view.emb j) ?_ ?_
  · show win0_8.index t (0 : Fin 2) * 2000 + 1 * (j 0).val = 2000 * t.val + (j 0).val
    rw [e0]; omega
  · show win0_8.index t (1 : Fin 2) * 512 + 1 * (j 1).val = (j 1).val
    rw [e1]; omega

/-- An entry of the array is in point t's block iff each coordinate is in the block's range on its axis. -/
theorem mem_blk8 (t : Fin cfg0.N) (i : S50000x512.Idx) :
    i ∈ ((cfg0.win 8).blk t).view.set ↔ ∀ a : Fin 2, win0_8.index t a * S2000x512.size a ≤ (i a).val
      ∧ (i a).val < win0_8.index t a * S2000x512.size a + S2000x512.size a := by
  show i ∈ ((View.whole main_v5_2).slice (win0_8.rect t)).set ↔ _
  rw [View.set_slice_whole, Rect.mem_set_unit]
  exact Iff.rfl

/-- Row r is in the block of point r / 2000. -/
theorem cover8 (i : S50000x512.Idx) :
    ∃ t : Fin cfg0.N, (cfg0.win 8).flush t = true ∧ i ∈ ((cfg0.win 8).blk t).view.set := by
  have h0 : (i 0).val < 50000 := (i 0).isLt
  have h1 : (i 1).val < 512 := (i 1).isLt
  have ht : (i 0).val / 2000 < cfg0.N := by show (i 0).val / 2000 < grid0.N; rw [N_0]; omega
  obtain ⟨-, -, -, -, -, -, -, -, -, -, -, -, -, -, -, -, e0, e1⟩ := idx_facts ⟨(i 0).val / 2000, ht⟩
  refine ⟨⟨(i 0).val / 2000, ht⟩, flush0_8 _, ?_⟩
  rw [mem_blk8]
  intro a
  match a with
  | ⟨0, _⟩ =>
    show win0_8.index ⟨(i 0).val / 2000, ht⟩ (0 : Fin 2) * 2000 ≤ (i 0).val
      ∧ (i 0).val < win0_8.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_8.index ⟨(i 0).val / 2000, ht⟩ (1 : Fin 2) * 512 ≤ (i 1).val
      ∧ (i 1).val < win0_8.index ⟨(i 0).val / 2000, ht⟩ (1 : Fin 2) * 512 + 512
    rw [e1]; omega

/-- The array after the region: the whole product. -/
theorem arr0_8 (c : Dev nD) :
    ((dat0 (F := Ideal) V c).arrAt 8 cfg0.N : (⟨2, ![50000, 512]⟩ : Shape).Idx → EReal)
      = projBias (V c main_arg0) (V c main_v2) (rowOf (V c main_v4)) :=
  (dat0 (F := Ideal) V c).arrAt_eq_of_cover 8 (projBias (V c main_arg0) (V c main_v2) (rowOf (V c main_v4)))
    (fun t _ => flushed8_eq V c t) cover8

end Cert.KernelIdeal.KV0

end
-- ==== Proof.K0Value.lean ====
/-
  The three dense projections as the first region leaves them, gathered: x · W_bases, x · W_comb + b_comb and
  x · W_res + b_res, each the whole array as one function of the region's inputs.
-/
import proofs.«151256_j76828374991621_2_alg».proof.Proof.K0Value6
import proofs.«151256_j76828374991621_2_alg».proof.Proof.K0Value7
import proofs.«151256_j76828374991621_2_alg».proof.Proof.K0Value8
-- ==== Proof.K1Row.lean ====
/-
  One row of the second region's arithmetic, over the extended reals.

  A row of the layer's output depends only on the same row of the three projected arrays: with cm the row's 32
  combination weights, ag its 256 aggregated basis entries and rs its 512 residual entries, column j = 64 h + f
  of the row before normalisation is (Σ_{k<4} cm(4h+k) · ag(64k+f) + cb(j)) + rs(j); the row is then centred by
  its mean, scaled by (var + ε)^(-1/2), by γ, shifted by β and clipped at zero. These are the specification's
  definitions with the row coordinate taken away, so that a block of rows and the whole array can both be read
  through them.
-/
import proofs.«151256_j76828374991621_2_alg».proof.Proof.Spec

noncomputable section

open scoped BigOperators

namespace Cert.KernelIdeal.KV

open Cert.KernelIdeal Cert.EG Idealize.ShloMosaic Idealize.ShloMosaic.ValueIdx

/-- The mean of a row of 512 entries: their sum divided by the word 512.0. -/
def rowMu (p : Fin 512 → EReal) : EReal := Ideal.div (∑ j : Fin 512, p j) c512

/-- The deviation of entry j from the row mean. -/
def rowDev (p : Fin 512 → EReal) (j : Fin 512) : EReal := p j - rowMu p

/-- The mean of the squared deviations of a row. -/
def rowVar (p : Fin 512 → EReal) : EReal := Ideal.div (∑ j : Fin 512, rowDev p j * rowDev p j) c512

/-- The normalised, scaled, shifted and clipped entry j of a row p, with scales g and shifts b. -/
def rowLn (p g b : Fin 512 → EReal) (j : Fin 512) : EReal :=
  max (rowDev p j * Ideal.rsqrt (rowVar p + cEps) * g j + b j) cZero

/-- Column j = 64 h + f of the per-head combination of one row: Σ_{k<4} cm(4h+k) · ag(64k+f). -/
def headMix (cm : Fin 32 → EReal) (ag : Fin 256 → EReal) (j : Fin 512) : EReal :=
  ∑ k : Fin 4, cm (⟨4 * (j.val / 64) + k.val, by omega⟩ : Fin 32) * ag (⟨64 * k.val + j.val % 64, by omega⟩ : Fin 256)

/-- The row before normalisation: combination plus output bias plus residual. -/
def rowPre (cm : Fin 32 → EReal) (ag : Fin 256 → EReal) (rs cb : Fin 512 → EReal) (j : Fin 512) : EReal :=
  (headMix cm ag j + cb j) + rs j

/-- The specification's entry (R, j) is the row arithmetic applied to row R of the three arrays. -/
theorem lnAt_eq_row (comb : (⟨2, ![50000, 32]⟩ : Shape).Idx → EReal) (agg : (⟨2, ![50000, 256]⟩ : Shape).Idx → EReal)
    (res : (⟨2, ![50000, 512]⟩ : Shape).Idx → EReal) (cb g b : (⟨1, ![512]⟩ : Shape).Idx → EReal)
    (R : Fin 50000) (j : Fin 512) :
    lnAt comb agg res cb g b R j
      = rowLn (rowPre (fun c => comb (ix2 R c)) (fun c => agg (ix2 R c)) (fun c => res (ix2 R c)) (fun c => cb (ix1 c)))
          (fun c => g (ix1 c)) (fun c => b (ix1 c)) j := rfl

end Cert.KernelIdeal.KV

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.K1PayLN.lean ====
/-
  The normalisation half of the second region's payload, read at an index of a block of 1000 rows.

  The kernel takes the lane sum of each row, keeps it as a column, divides by the splat of 512.0, broadcasts the
  column back over the 512 lanes, subtracts; squares, and the same again for the variance; adds ε, takes the
  inverse square root, broadcasts, multiplies; then the scale row, the shift row and the maximum with the zero
  splat. Entry (r, j) of the result is the row arithmetic applied to row r of the operand block.
-/
import proofs.«151256_j76828374991621_2_alg».proof.Proof.Gen.KernelIdeal.Skeleton
import proofs.«151256_j76828374991621_2_alg».proof.Proof.K1Row
import proofs.«151256_j76828374991621_2_alg».proof.Proof.LibColumnCast
import Idealize.ShloMosaic.PureOps.Ideal.Laws
import Idealize.ShloMosaic.Lib.ValueLayout

noncomputable section

open scoped BigOperators

namespace Cert.KernelIdeal.KV

open Cert.KernelIdeal Cert.KernelIdeal.Gen Cert.EG Idealize.ShloMosaic Idealize.ShloMosaic.ValueIdx

/-- A column [a, 1] broadcast to [a, b] reads, at (p, c), the column at (p, 0). -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a block, at row r: the sum of the row's 512 entries. -/
theorem laneSum_apply (w : FVec Ideal S1000x512 .f32) (h : S1000x512.Reduces [1] S1000) (hφ : FKind.Formats .f32)
    (hacc : (0x00000000#32 : BitVec (FTy.bits .f32)) = FKind.add.neutral .f32 hφ) (r : Fin 1000) :
    multiReduction (F := Ideal) .add [1] S1000 w 0x00000000#32 h hφ hacc (ix1 r) = ∑ k : Fin 512, w (ix2 r k) := by
  refine (Ideal.multiReduction_add_single w 0x00000000#32 h hφ hacc (ix1 r)).trans ?_
  refine Finset.sum_congr rfl fun k _ => congrArg w (funext fun a => Fin.ext ?_)
  match a with
  | ⟨0, _⟩ => rfl
  | ⟨1, _⟩ => rfl

/-- The kernel's keep-dims row mean: the lane sum, as a column, divided by the splat of 512.0. -/
def kMean (p : FVec Ideal S1000x512 .f32) : FVec Ideal S1000x1 .f32 :=
  divf (shapeCast S1000x1 (multiReduction (F := Ideal) .add [1] S1000 p 0x00000000#32 reduces_S1000x512_S1000 (.inl rfl) rfl) shapeCasts_S1000_S1000x1)
    (broadcast S1000x1 (Scalar.ofBits (F := Ideal) .f32 0x44000000#32))

theorem kMean_apply (p : FVec Ideal S1000x512 .f32) (r : Fin 1000) (u : Fin 1) :
    kMean p (ix2 r u) = rowMu (fun k => p (ix2 r k)) := by
  show Ideal.div (shapeCast S1000x1 _ shapeCasts_S1000_S1000x1 (ix2 r u)) c512 = Ideal.div _ c512
  refine congrArg (fun z => Ideal.div z c512) ?_
  refine (Idealize.ShloMosaic.ColumnCast.shapeCast_col_apply _ _ r u).trans ?_
  exact laneSum_apply p _ _ _ r

/-- The kernel's centred block: the block less its row means broadcast over the lanes. -/
def kDev (p : FVec Ideal S1000x512 .f32) : FVec Ideal S1000x512 .f32 :=
  subf p (broadcastTo S1000x512 (kMean p) broadcasts_S1000x1_S1000x512)

theorem kDev_apply (p : FVec Ideal S1000x512 .f32) (r : Fin 1000) (j : Fin 512) :
    kDev p (ix2 r j) = rowDev (fun k => p (ix2 r k)) j := by
  show p (ix2 r j) - broadcastTo S1000x512 (kMean p) broadcasts_S1000x1_S1000x512 (ix2 r j) = p (ix2 r j) - _
  refine congrArg (fun z => p (ix2 r j) - z) ?_
  refine (broadcastTo_col_apply _ _ r j).trans ?_
  exact kMean_apply p r 0

/-- The kernel's inverse deviation column: (mean of squared deviations + ε)^(-1/2). -/
def kInv (p : FVec Ideal S1000x512 .f32) : FVec Ideal S1000x1 .f32 :=
  rsqrt (addf (kMean (mulf (kDev p) (kDev p))) (broadcast S1000x1 (Scalar.ofBits (F := Ideal) .f32 0x3727C5AC#32)))

theorem kInv_apply (p : FVec Ideal S1000x512 .f32) (r : Fin 1000) (u : Fin 1) :
    kInv p (ix2 r u) = Ideal.rsqrt (rowVar (fun k => p (ix2 r k)) + cEps) := by
  show Ideal.rsqrt (kMean (mulf (kDev p) (kDev p)) (ix2 r u) + cEps) = _
  refine congrArg (fun z => Ideal.rsqrt (z + cEps)) ?_
  refine (kMean_apply _ r u).trans ?_
  unfold rowMu rowVar
  refine congrArg (fun z => Ideal.div z c512) (Finset.sum_congr rfl fun k _ => ?_)
  show kDev p (ix2 r k) * kDev p (ix2 r k) = _
  rw [kDev_apply]

/-- The kernel's normalised, scaled, shifted and clipped block. -/
def kOut (p : FVec Ideal S1000x512 .f32) (x4 x5 : Vec Ideal S1x512 .f32) : FVec Ideal S1000x512 .f32 :=
  maximumf
    (addf (mulf (mulf (kDev p) (broadcastTo S1000x512 (kInv p) broadcasts_S1000x1_S1000x512))
        (broadcastTo S1000x512 x4 broadcasts_S1x512_S1000x512))
      (broadcastTo S1000x512 x5 broadcasts_S1x512_S1000x512))
    (broadcast S1000x512 (Scalar.ofBits (F := Ideal) .f32 0x00000000#32))

theorem kOut_apply (p : FVec Ideal S1000x512 .f32) (x4 x5 : Vec Ideal S1x512 .f32) (r : Fin 1000) (j : Fin 512) :
    kOut p x4 x5 (ix2 r j)
      = rowLn (fun k => p (ix2 r k)) (fun k => x4 (ix2 (0 : Fin 1) k)) (fun k => x5 (ix2 (0 : Fin 1) k)) j := by
  show max (kDev p (ix2 r j) * broadcastTo S1000x512 (kInv p) broadcasts_S1000x1_S1000x512 (ix2 r j)
        * broadcastTo S1000x512 x4 broadcasts_S1x512_S1000x512 (ix2 r j)
      + broadcastTo S1000x512 x5 broadcasts_S1x512_S1000x512 (ix2 r j)) cZero = _
  rw [kDev_apply, broadcastTo_col_apply, kInv_apply, broadcastTo_1b_ab_apply, broadcastTo_1b_ab_apply]
  rfl

/-- The payload is that chain of operations of the sum of its first two operands. -/
theorem pay1_eq (v51 : FVec Ideal S1000x512 .f32) (x2 : Vec Ideal S1000x512 .f32) (x4 x5 : Vec Ideal S1x512 .f32) :
    k1_pay1 (F := Ideal) v51 x2 x4 x5 = kOut (addf v51 x2) x4 x5 := by
  unfold k1_pay1
  simp only [shapeCast_self]
  rfl

/-- Entry (r, j) of the payload: the row arithmetic applied to row r of the sum of the first two operands. -/
theorem pay1_apply (v51 : FVec Ideal S1000x512 .f32) (x2 : Vec Ideal S1000x512 .f32) (x4 x5 : Vec Ideal S1x512 .f32)
    (r : Fin 1000) (j : Fin 512) :
    k1_pay1 (F := Ideal) v51 x2 x4 x5 (ix2 r j)
      = rowLn (fun k => v51 (ix2 r k) + x2 (ix2 r k)) (fun k => x4 (ix2 (0 : Fin 1) k)) (fun k => x5 (ix2 (0 : Fin 1) k)) j := by
  rw [pay1_eq]
  exact kOut_apply (addf v51 x2) x4 x5 r j

end Cert.KernelIdeal.KV

end
-- ==== Proof.LibHeads.lean ====
/-
  A matrix whose second axis has extent c = a · b, and the rank-3 array that keeps the same elements with that axis
  split into an outer axis of extent a and an inner axis of extent b: a shape cast between the two keeps every
  element's row-major position, which is n · c + j for the matrix's element (n, j) and (n · a + p) · b + q for the
  array's element (n, p, q). With j = b · p + q the two agree, so the split reads the matrix at column b · p + q,
  and the merge reads the array at (n, j / b, j % b). The same file reads, at an index, the slices that keep one
  position of the inner or of the outer axis, the casts that drop or add that unit axis, and the broadcasts that
  repeat a unit axis.
-/
import Idealize.ShloMosaic.Lib.ValueIdx
import Idealize.ShloMosaic.Lib.Pipeline.Value
import Idealize.ShloMosaic.Lib.ValueLayout

namespace Cert.LibHeads

open Idealize.ShloMosaic Idealize.ShloMosaic.ValueIdx

/-- The column b · p + q lies inside an axis of extent c = a · b when p < a and q < b. -/
theorem split_bound {a b c : ℕ} (hc : c = a * b) (p : Fin a) (q : Fin b) : b * p.val + q.val < c := by
  rw [hc]
  calc b * p.val + q.val < b * p.val + b := Nat.add_lt_add_left q.isLt _
    _ = b * (p.val + 1) := by rw [Nat.mul_add, Nat.mul_one]
    _ ≤ b * a := Nat.mul_le_mul_left _ p.isLt
    _ = a * b := Nat.mul_comm _ _

/-- An axis of extent c = a · b that has an element has b > 0. -/
theorem inner_pos {a b c : ℕ} (hc : c = a * b) (j : Fin c) : 0 < b := by
  rcases Nat.eq_zero_or_pos b with h0 | h0
  · have hj : j.val < a * b := Nat.lt_of_lt_of_eq j.isLt hc
    rw [h0, Nat.mul_zero] at hj; exact absurd hj (Nat.not_lt_zero _)
  · exact h0

/-- The outer coordinate j / b of a column j < a · b lies below a. -/
theorem merge_bound_outer {a b c : ℕ} (hc : c = a * b) (j : Fin c) : j.val / b < a :=
  Nat.div_lt_of_lt_mul (Nat.lt_of_lt_of_eq j.isLt (hc.trans (Nat.mul_comm a b)))

/-- The inner coordinate j % b of a column j < a · b lies below b. -/
theorem merge_bound_inner {a b c : ℕ} (hc : c = a * b) (j : Fin c) : j.val % b < b :=
  Nat.mod_lt _ (inner_pos hc j)

/-- A matrix [N, c] with c = a · b cast to [N, a, b] reads, at (n, p, q), the matrix at (n, b · p + q): the
    row-major positions are (n · a + p) · b + q and n · (a · b) + (b · p + q). -/
theorem split_apply {α : Type} {N a b c : ℕ} (hc : c = a * b) (x : (⟨2, ![N, c]⟩ : Shape).Idx → α)
    (h : (⟨2, ![N, c]⟩ : Shape).ShapeCasts (⟨3, ![N, a, b]⟩ : Shape)) (n : Fin N) (p : Fin a) (q : Fin b) :
    shapeCast (⟨3, ![N, a, b]⟩ : Shape) x h (ix3 n p q) = x (ix2 n ⟨b * p.val + q.val, split_bound hc p q⟩) :=
  shapeCast_apply x h _ _ (by
    rw [Shape.rowMajor_val_two, Shape.rowMajor_val_three]
    show n.val * c + (b * p.val + q.val) = (n.val * a + p.val) * b + q.val
    rw [hc, Nat.add_mul, Nat.mul_assoc, Nat.mul_comm p.val b, Nat.add_assoc])

/-- An array [N, a, b] cast to the matrix [N, c] with c = a · b reads, at (n, j), the array at (n, j / b, j % b):
    the row-major positions are (n · a + j / b) · b + j % b and n · (a · b) + j, and b · (j / b) + j % b = j. -/
theorem merge_apply {α : Type} {N a b c : ℕ} (hc : c = a * b) (y : (⟨3, ![N, a, b]⟩ : Shape).Idx → α)
    (h : (⟨3, ![N, a, b]⟩ : Shape).ShapeCasts (⟨2, ![N, c]⟩ : Shape)) (n : Fin N) (j : Fin c) :
    shapeCast (⟨2, ![N, c]⟩ : Shape) y h (ix2 n j)
      = y (ix3 n ⟨j.val / b, merge_bound_outer hc j⟩ ⟨j.val % b, merge_bound_inner hc j⟩) :=
  shapeCast_apply y h _ _ (by
    rw [Shape.rowMajor_val_three, Shape.rowMajor_val_two]
    show (n.val * a + j.val / b) * b + j.val % b = n.val * c + j.val
    generalize j.val = m
    rw [hc, Nat.add_mul, Nat.mul_assoc, Nat.add_assoc, Nat.mul_comm (m / b) b, Nat.div_add_mod])

/-! ## One position of the inner or of the outer axis: slices, unit-axis casts, broadcasts -/

/-- The slice [N, a, b] → [N, a, 1] at inner position k reads, at (n, p, u), the array at (n, p, k). -/
theorem slice_inner_apply {α : Type} {N a b : ℕ} (k : ℕ) (hk : k < b) (y : (⟨3, ![N, a, b]⟩ : Shape).Idx → α)
    (h : (⟨3, ![N, a, b]⟩ : Shape).Slices ![0, 0, k] (⟨3, ![N, a, 1]⟩ : Shape)) (n : Fin N) (p : Fin a) (u : Fin 1) :
    extractStridedSlice (⟨3, ![N, a, 1]⟩ : Shape) ![0, 0, k] y h (ix3 n p u) = y (ix3 n p ⟨k, hk⟩) :=
  extractStridedSlice_apply _ y h _ _ fun ax => match ax with
    | ⟨0, _⟩ => (Nat.zero_add n.val).symm
    | ⟨1, _⟩ => (Nat.zero_add p.val).symm
    | ⟨2, _⟩ => by
      have hu : u.val = 0 := by omega
      show k = k + u.val
      rw [hu, Nat.add_zero]

/-- The slice [N, a, b] → [N, 1, b] at outer position k reads, at (n, u, q), the array at (n, k, q). -/
theorem slice_outer_apply {α : Type} {N a b : ℕ} (k : ℕ) (hk : k < a) (y : (⟨3, ![N, a, b]⟩ : Shape).Idx → α)
    (h : (⟨3, ![N, a, b]⟩ : Shape).Slices ![0, k, 0] (⟨3, ![N, 1, b]⟩ : Shape)) (n : Fin N) (u : Fin 1) (q : Fin b) :
    extractStridedSlice (⟨3, ![N, 1, b]⟩ : Shape) ![0, k, 0] y h (ix3 n u q) = y (ix3 n ⟨k, hk⟩ q) :=
  extractStridedSlice_apply _ y h _ _ fun ax => match ax with
    | ⟨0, _⟩ => (Nat.zero_add n.val).symm
    | ⟨1, _⟩ => by
      have hu : u.val = 0 := by omega
      show k = k + u.val
      rw [hu, Nat.add_zero]
    | ⟨2, _⟩ => (Nat.zero_add q.val).symm

/-- [N, a, 1] cast to [N, a] reads, at (n, p), the array at (n, p, 0). -/
theorem dropInner_apply {α : Type} {N a : ℕ} (y : (⟨3, ![N, a, 1]⟩ : Shape).Idx → α)
    (h : (⟨3, ![N, a, 1]⟩ : Shape).ShapeCasts (⟨2, ![N, a]⟩ : Shape)) (n : Fin N) (p : Fin a) :
    shapeCast (⟨2, ![N, a]⟩ : Shape) y h (ix2 n p) = y (ix3 n p (0 : Fin 1)) :=
  shapeCast_apply y h _ _ (by
    rw [Shape.rowMajor_val_three, Shape.rowMajor_val_two]
    show (n.val * a + p.val) * 1 + 0 = n.val * a + p.val
    rw [Nat.mul_one, Nat.add_zero])

/-- [N, a] cast to [N, a, 1] reads, at (n, p, u), the matrix at (n, p). -/
theorem addInner_apply {α : Type} {N a : ℕ} (x : (⟨2, ![N, a]⟩ : Shape).Idx → α)
    (h : (⟨2, ![N, a]⟩ : Shape).ShapeCasts (⟨3, ![N, a, 1]⟩ : Shape)) (n : Fin N) (p : Fin a) (u : Fin 1) :
    shapeCast (⟨3, ![N, a, 1]⟩ : Shape) x h (ix3 n p u) = x (ix2 n p) :=
  shapeCast_apply x h _ _ (by
    have hu : u.val = 0 := by omega
    rw [Shape.rowMajor_val_three, Shape.rowMajor_val_two]
    show n.val * a + p.val = (n.val * a + p.val) * 1 + u.val
    rw [hu, Nat.mul_one, Nat.add_zero])

/-- [N, 1, b] cast to [N, b] reads, at (n, q), the array at (n, 0, q). -/
theorem dropOuter_apply {α : Type} {N b : ℕ} (y : (⟨3, ![N, 1, b]⟩ : Shape).Idx → α)
    (h : (⟨3, ![N, 1, b]⟩ : Shape).ShapeCasts (⟨2, ![N, b]⟩ : Shape)) (n : Fin N) (q : Fin b) :
    shapeCast (⟨2, ![N, b]⟩ : Shape) y h (ix2 n q) = y (ix3 n (0 : Fin 1) q) :=
  shapeCast_apply y h _ _ (by
    rw [Shape.rowMajor_val_three, Shape.rowMajor_val_two]
    show (n.val * 1 + 0) * b + q.val = n.val * b + q.val
    rw [Nat.mul_one, Nat.add_zero])

/-- [N, b] cast to [N, 1, b] reads, at (n, u, q), the matrix at (n, q). -/
theorem addOuter_apply {α : Type} {N b : ℕ} (x : (⟨2, ![N, b]⟩ : Shape).Idx → α)
    (h : (⟨2, ![N, b]⟩ : Shape).ShapeCasts (⟨3, ![N, 1, b]⟩ : Shape)) (n : Fin N) (u : Fin 1) (q : Fin b) :
    shapeCast (⟨3, ![N, 1, b]⟩ : Shape) x h (ix3 n u q) = x (ix2 n q) :=
  shapeCast_apply x h _ _ (by
    have hu : u.val = 0 := by omega
    rw [Shape.rowMajor_val_three, Shape.rowMajor_val_two]
    show n.val * b + q.val = (n.val * 1 + u.val) * b + q.val
    rw [hu, Nat.mul_one, Nat.add_zero])

/-- A coordinate below an extent, read through the broadcast's rule "0 on a unit axis, else the coordinate". -/
theorem coord_eq_ite {m : ℕ} (i : Fin m) : i.val = if m = 1 then 0 else i.val := by
  by_cases hm : m = 1
  · rw [if_pos hm]; have := i.isLt; omega
  · rw [if_neg hm]

/-- [N, a, 1] broadcast to [N, a, b] reads, at (n, p, q), the array at (n, p, 0). -/
theorem bcastInner_apply {α : Type} {N a b : ℕ} (y : (⟨3, ![N, a, 1]⟩ : Shape).Idx → α)
    (h : (⟨3, ![N, a, 1]⟩ : Shape).Broadcasts (⟨3, ![N, a, b]⟩ : Shape)) (n : Fin N) (p : Fin a) (q : Fin b) :
    broadcastTo (⟨3, ![N, a, b]⟩ : Shape) y h (ix3 n p q) = y (ix3 n p (0 : Fin 1)) :=
  broadcastTo_apply y h _ _ fun ax => match ax with
    | ⟨0, _⟩ => coord_eq_ite n
    | ⟨1, _⟩ => coord_eq_ite p
    | ⟨2, _⟩ => (if_pos rfl).symm

/-- [N, 1, b] broadcast to [N, a, b] reads, at (n, p, q), the array at (n, 0, q). -/
theorem bcastOuter_apply {α : Type} {N a b : ℕ} (y : (⟨3, ![N, 1, b]⟩ : Shape).Idx → α)
    (h : (⟨3, ![N, 1, b]⟩ : Shape).Broadcasts (⟨3, ![N, a, b]⟩ : Shape)) (n : Fin N) (p : Fin a) (q : Fin b) :
    broadcastTo (⟨3, ![N, a, b]⟩ : Shape) y h (ix3 n p q) = y (ix3 n (0 : Fin 1) q) :=
  broadcastTo_apply y h _ _ fun ax => match ax with
    | ⟨0, _⟩ => coord_eq_ite n
    | ⟨1, _⟩ => (if_pos rfl).symm
    | ⟨2, _⟩ => coord_eq_ite q

end Cert.LibHeads
-- ==== Proof.K1PayConv.lean ====
/-
  The combination half of the second region's payload, read at an index of a block of 1000 rows.

  The kernel views the row's 32 combination weights as 8 heads of 4 weights and its 256 aggregated entries as
  4 bases of 64 features. For k = 0 … 3 it takes weight k of every head (a slice of the inner axis, that unit
  axis dropped and put back, broadcast over the 64 features) and basis k (a slice of the outer axis, that unit
  axis dropped and put back, broadcast over the 8 heads), multiplies, and adds the four products in order onto
  a zero splat. The [1000, 8, 64] result is merged to [1000, 512] and the bias row is added. Entry (r, 64 h + f)
  is Σ_{k<4} cm(r, 4h+k) · ag(r, 64k+f) plus the bias: the zero drops out and the left-nested sum of four is the
  sum over Fin 4 as it is written.
-/
import proofs.«151256_j76828374991621_2_alg».proof.Proof.Gen.KernelIdeal.Skeleton
import proofs.«151256_j76828374991621_2_alg».proof.Proof.K1Row
import proofs.«151256_j76828374991621_2_alg».proof.Proof.LibHeads
import Idealize.ShloMosaic.PureOps.Ideal.Laws
import Idealize.ShloMosaic.Lib.ValueLayout

noncomputable section

open scoped BigOperators

namespace Cert.KernelIdeal.KV

open Cert.KernelIdeal Cert.KernelIdeal.Gen Cert.EG Idealize.ShloMosaic Idealize.ShloMosaic.ValueIdx

/-- Weight k of every head, spread over the head's 64 features. -/
def kWt (k : ℕ) (v2 : FVec Ideal S1000x8x4 .f32) (hs : S1000x8x4.Slices ![0, 0, k] S1000x8x1) : FVec Ideal S1000x8x64 .f32 :=
  broadcastTo S1000x8x64
    (shapeCast S1000x8x1
      (shapeCast S1000x8 (extractStridedSlice S1000x8x1 ![0, 0, k] v2 hs) shapeCasts_S1000x8x1_S1000x8)
      shapeCasts_S1000x8_S1000x8x1)
    broadcasts_S1000x8x1_S1000x8x64

theorem kWt_apply (k : ℕ) (hk : k < 4) (v2 : FVec Ideal S1000x8x4 .f32) (hs : S1000x8x4.Slices ![0, 0, k] S1000x8x1)
    (r : Fin 1000) (h : Fin 8) (f : Fin 64) : kWt k v2 hs (ix3 r h f) = v2 (ix3 r h (⟨k, hk⟩ : Fin 4)) := by
  refine (Cert.LibHeads.bcastInner_apply _ _ r h f).trans ?_
  refine (Cert.LibHeads.addInner_apply _ _ r h (0 : Fin 1)).trans ?_
  refine (Cert.LibHeads.dropInner_apply _ _ r h).trans ?_
  exact Cert.LibHeads.slice_inner_apply k hk v2 hs r h (0 : Fin 1)

/-- Basis k of the row, spread over the 8 heads. -/
def kBs (k : ℕ) (v5 : FVec Ideal S1000x4x64 .f32) (hs : S1000x4x64.Slices ![0, k, 0] S1000x1x64) : FVec Ideal S1000x8x64 .f32 :=
  broadcastTo S1000x8x64
    (shapeCast S1000x1x64
      (shapeCast S1000x64 (extractStridedSlice S1000x1x64 ![0, k, 0] v5 hs) shapeCasts_S1000x1x64_S1000x64)
      shapeCasts_S1000x64_S1000x1x64)
    broadcasts_S1000x1x64_S1000x8x64

theorem kBs_apply (k : ℕ) (hk : k < 4) (v5 : FVec Ideal S1000x4x64 .f32) (hs : S1000x4x64.Slices ![0, k, 0] S1000x1x64)
    (r : Fin 1000) (h : Fin 8) (f : Fin 64) : kBs k v5 hs (ix3 r h f) = v5 (ix3 r (⟨k, hk⟩ : Fin 4) f) := by
  refine (Cert.LibHeads.bcastOuter_apply _ _ r h f).trans ?_
  refine (Cert.LibHeads.addOuter_apply _ _ r (0 : Fin 1) f).trans ?_
  refine (Cert.LibHeads.dropOuter_apply _ _ r f).trans ?_
  exact Cert.LibHeads.slice_outer_apply k hk v5 hs r (0 : Fin 1) f

/-- The four products added in order onto the zero splat. -/
def kAcc (v2 : FVec Ideal S1000x8x4 .f32) (v5 : FVec Ideal S1000x4x64 .f32) : FVec Ideal S1000x8x64 .f32 :=
  addf
    (addf
      (addf
        (addf (broadcast S1000x8x64 (Scalar.ofBits (F := Ideal) .f32 0x00000000#32))
          (mulf (kWt 0 v2 slices_S1000x8x4_o0_0_0_S1000x8x1) (kBs 0 v5 slices_S1000x4x64_o0_0_0_S1000x1x64)))
        (mulf (kWt 1 v2 slices_S1000x8x4_o0_0_1_S1000x8x1) (kBs 1 v5 slices_S1000x4x64_o0_1_0_S1000x1x64)))
      (mulf (kWt 2 v2 slices_S1000x8x4_o0_0_2_S1000x8x1) (kBs 2 v5 slices_S1000x4x64_o0_2_0_S1000x1x64)))
    (mulf (kWt 3 v2 slices_S1000x8x4_o0_0_3_S1000x8x1) (kBs 3 v5 slices_S1000x4x64_o0_3_0_S1000x1x64))

theorem kAcc_apply (v2 : FVec Ideal S1000x8x4 .f32) (v5 : FVec Ideal S1000x4x64 .f32) (r : Fin 1000) (h : Fin 8) (f : Fin 64) :
    kAcc v2 v5 (ix3 r h f) = ∑ k : Fin 4, v2 (ix3 r h k) * v5 (ix3 r k f) := by
  show Ideal.ofBits .f32 0x00000000#32
      + kWt 0 v2 slices_S1000x8x4_o0_0_0_S1000x8x1 (ix3 r h f) * kBs 0 v5 slices_S1000x4x64_o0_0_0_S1000x1x64 (ix3 r h f)
      + kWt 1 v2 slices_S1000x8x4_o0_0_1_S1000x8x1 (ix3 r h f) * kBs 1 v5 slices_S1000x4x64_o0_1_0_S1000x1x64 (ix3 r h f)
      + kWt 2 v2 slices_S1000x8x4_o0_0_2_S1000x8x1 (ix3 r h f) * kBs 2 v5 slices_S1000x4x64_o0_2_0_S1000x1x64 (ix3 r h f)
      + kWt 3 v2 slices_S1000x8x4_o0_0_3_S1000x8x1 (ix3 r h f) * kBs 3 v5 slices_S1000x4x64_o0_3_0_S1000x1x64 (ix3 r h f) = _
  rw [kWt_apply 0 (by decide), kWt_apply 1 (by decide), kWt_apply 2 (by decide), kWt_apply 3 (by decide),
    kBs_apply 0 (by decide), kBs_apply 1 (by decide), kBs_apply 2 (by decide), kBs_apply 3 (by decide),
    Fin.sum_univ_four, Ideal.ofBits_zero_f32, zero_add]
  rfl

/-- The payload is the merged accumulation of the split operands plus the bias row broadcast over the rows. -/
theorem pay2_eq (x0 : Vec Ideal S1000x32 .f32) (x1 : Vec Ideal S1000x256 .f32) (x3 : Vec Ideal S1x512 .f32) :
    k1_pay2 (F := Ideal) x0 x1 x3
      = addf
          (shapeCast S1000x512
            (kAcc (shapeCast S1000x8x4 x0 shapeCasts_S1000x32_S1000x8x4) (shapeCast S1000x4x64 x1 shapeCasts_S1000x256_S1000x4x64))
            shapeCasts_S1000x8x64_S1000x512)
          (broadcastTo S1000x512 x3 broadcasts_S1x512_S1000x512) := by
  unfold k1_pay2
  simp only [shapeCast_self]
  rfl

/-- Entry (r, j) of the payload: the per-head combination of row r of the two blocks plus the bias at j. -/
theorem pay2_apply (x0 : Vec Ideal S1000x32 .f32) (x1 : Vec Ideal S1000x256 .f32) (x3 : Vec Ideal S1x512 .f32)
    (r : Fin 1000) (j : Fin 512) :
    k1_pay2 (F := Ideal) x0 x1 x3 (ix2 r j)
      = headMix (fun c => x0 (ix2 r c)) (fun c => x1 (ix2 r c)) j + x3 (ix2 (0 : Fin 1) j) := by
  rw [pay2_eq]
  show shapeCast S1000x512 (kAcc _ _) shapeCasts_S1000x8x64_S1000x512 (ix2 r j)
      + broadcastTo S1000x512 x3 broadcasts_S1x512_S1000x512 (ix2 r j) = _
  refine congrArg₂ (· + ·) ?_ (broadcastTo_1b_ab_apply x3 _ r j)
  refine (Cert.LibHeads.merge_apply (a := 8) (b := 64) rfl _ _ r j).trans ?_
  refine (kAcc_apply _ _ r _ _).trans ?_
  refine Finset.sum_congr rfl fun k _ => ?_
  refine congrArg₂ (· * ·) ?_ ?_
  · exact Cert.LibHeads.split_apply (a := 8) (b := 4) rfl x0 _ r _ k
  · exact Cert.LibHeads.split_apply (a := 4) (b := 64) rfl x1 _ r k _

end Cert.KernelIdeal.KV

end
-- ==== Proof.K1Pay.lean ====
/-
  The second region's payload at an index: what one grid point leaves in its block of the output, entry by entry.

  The body stores one whole block: the normalisation applied to the combination of the loaded blocks. Entry (r, j)
  of what it leaves is the row arithmetic applied to row r of the combination block, of the aggregation block and
  of the residual block, with the bias, scale and shift rows.
-/
import proofs.«151256_j76828374991621_2_alg».proof.Proof.Gen.KernelIdeal.Frame
import proofs.«151256_j76828374991621_2_alg».proof.Proof.K1PayLN
import proofs.«151256_j76828374991621_2_alg».proof.Proof.K1PayConv
import Idealize.ShloMosaic.Lib.Pipeline.Value

noncomputable section

open scoped BigOperators

namespace Cert.KernelIdeal.KV

open Cert.KernelIdeal Cert.KernelIdeal.Gen Cert.EG Idealize.ShloMosaic Idealize.ShloMosaic.ValueIdx

theorem zeroOff : (![0, 0] : Fin 2 → Nat) = fun _ => 0 := funext fun a => by fin_cases a <;> rfl

/-- What the body leaves in the output block is the normalisation payload of the combination payload of the blocks:
    every access is of a whole buffer. -/
theorem out_eq (x0 : Vec Ideal S1000x32 .f32) (x1 : Vec Ideal S1000x256 .f32) (x2 : Vec Ideal S1000x512 .f32)
    (x3 x4 x5 : Vec Ideal S1x512 .f32) :
    out1_6 (F := Ideal) x0 x1 x2 x3 x4 x5 = k1_pay1 (k1_pay2 x0 x1 x3) x2 x4 x5 := by
  unfold out1_6
  rw [View.canon_unit_zero zeroOff]
  simp only [View.ld_unit_zero (S := S1000x32) zeroOff, View.ld_unit_zero (S := S1000x256) zeroOff,
    View.ld_unit_zero (S := S1000x512) zeroOff, View.ld_unit_zero (S := S1x512) zeroOff]

/-- Entry (r, j) of the output block: the row arithmetic applied to row r of the input blocks. -/
theorem out_apply (x0 : Vec Ideal S1000x32 .f32) (x1 : Vec Ideal S1000x256 .f32) (x2 : Vec Ideal S1000x512 .f32)
    (x3 x4 x5 : Vec Ideal S1x512 .f32) (r : Fin 1000) (j : Fin 512) :
    out1_6 (F := Ideal) x0 x1 x2 x3 x4 x5 (ix2 r j)
      = rowLn (rowPre (fun c => x0 (ix2 r c)) (fun c => x1 (ix2 r c)) (fun c => x2 (ix2 r c)) (fun c => x3 (ix2 (0 : Fin 1) c)))
          (fun c => x4 (ix2 (0 : Fin 1) c)) (fun c => x5 (ix2 (0 : Fin 1) c)) j := by
  rw [out_eq, pay1_apply]
  refine congrArg (fun p => rowLn p (fun c => x4 (ix2 (0 : Fin 1) c)) (fun c => x5 (ix2 (0 : Fin 1) c)) j) (funext fun k => ?_)
  show k1_pay2 (F := Ideal) x0 x1 x3 (ix2 r k) + x2 (ix2 r k) = _
  rw [pay2_apply]
  rfl

end Cert.KernelIdeal.KV

end
-- ==== Proof.K1Value.lean ====
/-
  From blocks to the array, for the second region.

  Grid point t reads rows 1000 t … 1000 t + 999 of the combination, aggregation and residual arrays and the whole
  bias, scale and shift rows, and writes rows 1000 t … 1000 t + 999 of the output. Row r of what it writes is the
  row arithmetic applied to row r of its blocks, that is to row 1000 t + r of the arrays: the block of the
  specification's output at point t. The fifty blocks cover the array (row R is in block R / 1000), so the array
  ends holding the specification's output.
-/
import proofs.«151256_j76828374991621_2_alg».proof.Proof.Gen.KernelIdeal.Frame
import proofs.«151256_j76828374991621_2_alg».proof.Proof.Spec
import proofs.«151256_j76828374991621_2_alg».proof.Proof.K1Pay
import Idealize.ShloMosaic.Lib.Pipeline.Value

noncomputable section

open scoped BigOperators

namespace Cert.KernelIdeal.KV

open Cert.KernelIdeal Cert.KernelIdeal.Gen Cert.EG Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The index maps over the grid: the three row-blocked inputs and the output are at block (t, 0), the three rows
    at block (0, 0). -/
theorem blockIndex : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row r of the combination block at point t is row 1000 t + r of the array. -/
theorem blk0_apply (c : Dev nD) (t : Fin cfg1.N) (r : Fin 1000) (q : Fin 32) (R : Fin 50000) (hR : R.val = 1000 * t.val + r.val) :
    (iblk1 V c 0 t : Vec Ideal S1000x32 .f32) (ix2 r q) = (V c main_v5_1 : S50000x32.Idx → EReal) (ix2 R q) := by
  obtain ⟨⟨e0, e1⟩, -⟩ := blockIndex t
  unfold iblk1
  rw [View.read_apply]
  show V c main_v5_1 _ = V c main_v5_1 _
  congr 1
  funext a
  apply Fin.ext
  match a with
  | ⟨0, _⟩ => show win1_0.index t (0 : Fin 2) * 1000 + 1 * r.val = R.val; rw [e0, hR]; omega
  | ⟨1, _⟩ => show win1_0.index t (1 : Fin 2) * 32 + 1 * q.val = q.val; rw [e1]; omega

/-- Row r of the aggregation block at point t is row 1000 t + r of the array. -/
theorem blk1_apply (c : Dev nD) (t : Fin cfg1.N) (r : Fin 1000) (q : Fin 256) (R : Fin 50000) (hR : R.val = 1000 * t.val + r.val) :
    (iblk1 V c 1 t : Vec Ideal S1000x256 .f32) (ix2 r q) = (V c main_v50 : S50000x256.Idx → EReal) (ix2 R q) := by
  obtain ⟨-, ⟨e0, e1⟩, -⟩ := blockIndex t
  unfold iblk1
  rw [View.read_apply]
  show V c main_v50 _ = V c main_v50 _
  congr 1
  funext a
  apply Fin.ext
  match a with
  | ⟨0, _⟩ => show win1_1.index t (0 : Fin 2) * 1000 + 1 * r.val = R.val; rw [e0, hR]; omega
  | ⟨1, _⟩ => show win1_1.index t (1 : Fin 2) * 256 + 1 * q.val = q.val; rw [e1]; omega

/-- Row r of the residual block at point t is row 1000 t + r of the array. -/
theorem blk2_apply (c : Dev nD) (t : Fin cfg1.N) (r : Fin 1000) (q : Fin 512) (R : Fin 50000) (hR : R.val = 1000 * t.val + r.val) :
    (iblk1 V c 2 t : Vec Ideal S1000x512 .f32) (ix2 r q) = (V c main_v5_2 : S50000x512.Idx → EReal) (ix2 R q) := by
  obtain ⟨-, -, ⟨e0, e1⟩, -⟩ := blockIndex t
  unfold iblk1
  rw [View.read_apply]
  show V c main_v5_2 _ = V c main_v5_2 _
  congr 1
  funext a
  apply Fin.ext
  match a with
  | ⟨0, _⟩ => show win1_2.index t (0 : Fin 2) * 1000 + 1 * r.val = R.val; rw [e0, hR]; omega
  | ⟨1, _⟩ => show win1_2.index t (1 : Fin 2) * 512 + 1 * q.val = q.val; rw [e1]; omega

/-- The bias row's block at any point is the row array. -/
theorem blk3_apply (c : Dev nD) (t : Fin cfg1.N) (q : Fin 512) :
    (iblk1 V c 3 t : Vec Ideal S1x512 .f32) (ix2 (0 : Fin 1) q) = (V c main_v51 : S1x512.Idx → EReal) (ix2 (0 : Fin 1) q) := by
  obtain ⟨-, -, -, ⟨e0, e1⟩, -⟩ := blockIndex t
  unfold iblk1
  rw [View.read_apply]
  show V c main_v51 _ = V c main_v51 _
  congr 1
  funext a
  apply Fin.ext
  match a with
  | ⟨0, _⟩ => show win1_3.index t (0 : Fin 2) * 1 + 1 * 0 = 0; rw [e0]
  | ⟨1, _⟩ => show win1_3.index t (1 : Fin 2) * 512 + 1 * q.val = q.val; rw [e1]; omega

/-- The scale row's block at any point is the row array. -/
theorem blk4_apply (c : Dev nD) (t : Fin cfg1.N) (q : Fin 512) :
    (iblk1 V c 4 t : Vec Ideal S1x512 .f32) (ix2 (0 : Fin 1) q) = (V c main_v52 : S1x512.Idx → EReal) (ix2 (0 : Fin 1) q) := by
  obtain ⟨-, -, -, -, ⟨e0, e1⟩, -⟩ := blockIndex t
  unfold iblk1
  rw [View.read_apply]
  show V c main_v52 _ = V c main_v52 _
  congr 1
  funext a
  apply Fin.ext
  match a with
  | ⟨0, _⟩ => show win1_4.index t (0 : Fin 2) * 1 + 1 * 0 = 0; rw [e0]
  | ⟨1, _⟩ => show win1_4.index t (1 : Fin 2) * 512 + 1 * q.val = q.val; rw [e1]; omega

/-- The shift row's block at any point is the row array. -/
theorem blk5_apply (c : Dev nD) (t : Fin cfg1.N) (q : Fin 512) :
    (iblk1 V c 5 t : Vec Ideal S1x512 .f32) (ix2 (0 : Fin 1) q) = (V c main_v53 : S1x512.Idx → EReal) (ix2 (0 : Fin 1) q) := by
  obtain ⟨-, -, -, -, -, ⟨e0, e1⟩, -⟩ := blockIndex t
  unfold iblk1
  rw [View.read_apply]
  show V c main_v53 _ = V c main_v53 _
  congr 1
  funext a
  apply Fin.ext
  match a with
  | ⟨0, _⟩ => show win1_5.index t (0 : Fin 2) * 1 + 1 * 0 = 0; rw [e0]
  | ⟨1, _⟩ => show win1_5.index t (1 : Fin 2) * 512 + 1 * q.val = q.val; rw [e1]; omega

/-- Entry (r, j) of the output block at point t sits at (1000 t + r, j) of the array. -/
theorem outEmb (t : Fin cfg1.N) (r : Fin 1000) (j : Fin 512) (R : Fin 50000) (hR : R.val = 1000 * t.val + r.val) :
    (((cfg1.win 6).blk t).view.emb (ix2 r j : S1000x512.Idx) : S50000x512.Idx) = ix2 R j := by
  obtain ⟨-, -, -, -, -, -, e0, e1⟩ := blockIndex t
  funext a
  apply Fin.ext
  match a with
  | ⟨0, _⟩ => show win1_6.index t (0 : Fin 2) * 1000 + 1 * r.val = R.val; rw [e0, hR]; omega
  | ⟨1, _⟩ => show win1_6.index t (1 : Fin 2) * 512 + 1 * j.val = j.val; rw [e1]; omega

/-- The specification's output array at the region's entry contents. -/
abbrev target (c : Dev nD) : (⟨2, ![50000, 512]⟩ : Shape).Idx → EReal :=
  lnOut (V c main_v5_1) (V c main_v50) (V c main_v5_2) (rowOf (V c main_v51)) (rowOf (V c main_v52)) (rowOf (V c main_v53))

/-- Entry y of what point t leaves is the specification's output at y's place in the array. -/
theorem pointEntry (c : Dev nD) (t : Fin cfg1.N) (y : S1000x512.Idx) :
    out1_6 (F := Ideal) (iblk1 V c 0 t) (iblk1 V c 1 t) (iblk1 V c 2 t) (iblk1 V c 3 t) (iblk1 V c 4 t) (iblk1 V c 5 t) y
      = target V c (((cfg1.win 6).blk t).view.emb y) := by
  obtain ⟨r, j, rfl⟩ : ∃ (r : Fin 1000) (j : Fin 512), y = ix2 r j := ⟨y 0, y 1, eq_ix2 y⟩
  have hN : cfg1.N = 50 := N_1
  have ht : t.val < 50 := by have := t.isLt; omega
  obtain ⟨R, hR⟩ : ∃ R : Fin 50000, R.val = 1000 * t.val + r.val := ⟨⟨1000 * t.val + r.val, by omega⟩, rfl⟩
  rw [outEmb t r j R hR, out_apply]
  show _ = lnAt (V c main_v5_1) (V c main_v50) (V c main_v5_2) (rowOf (V c main_v51)) (rowOf (V c main_v52)) (rowOf (V c main_v53)) R j
  rw [lnAt_eq_row]
  have e0 : (fun q => (iblk1 V c 0 t : Vec Ideal S1000x32 .f32) (ix2 r q)) = fun q => (V c main_v5_1 : S50000x32.Idx → EReal) (ix2 R q) :=
    funext fun q => blk0_apply V c t r q R hR
  have e1 : (fun q => (iblk1 V c 1 t : Vec Ideal S1000x256 .f32) (ix2 r q)) = fun q => (V c main_v50 : S50000x256.Idx → EReal) (ix2 R q) :=
    funext fun q => blk1_apply V c t r q R hR
  have e2 : (fun q => (iblk1 V c 2 t : Vec Ideal S1000x512 .f32) (ix2 r q)) = fun q => (V c main_v5_2 : S50000x512.Idx → EReal) (ix2 R q) :=
    funext fun q => blk2_apply V c t r q R hR
  have e3 : (fun q => (iblk1 V c 3 t : Vec Ideal S1x512 .f32) (ix2 (0 : Fin 1) q)) = fun q => rowOf (V c main_v51) (ix1 q) :=
    funext fun q => blk3_apply V c t q
  have e4 : (fun q => (iblk1 V c 4 t : Vec Ideal S1x512 .f32) (ix2 (0 : Fin 1) q)) = fun q => rowOf (V c main_v52) (ix1 q) :=
    funext fun q => blk4_apply V c t q
  have e5 : (fun q => (iblk1 V c 5 t : Vec Ideal S1x512 .f32) (ix2 (0 : Fin 1) q)) = fun q => rowOf (V c main_v53) (ix1 q) :=
    funext fun q => blk5_apply V c t q
  rw [e0, e1, e2, e3, e4, e5]

/-- What point t writes back is its block of the specification's output. -/
theorem flushed_eq (c : Dev nD) (t : Fin cfg1.N) :
    (dat1 (F := Ideal) V c).flushed 6 t = ((cfg1.win 6).blk t).view.read (Elt Ideal) (target V c) := by
  show (cfg1.win 6).cut (grid1.coords t) ((dat1 (F := Ideal) V c).after 6 t) = _
  rw [after1_6]
  funext y
  exact pointEntry V c t y

/-- An index of the array is in point t's block iff each coordinate is in the block's range on its axis. -/
theorem mem_blk (t : Fin cfg1.N) (i : S50000x512.Idx) :
    i ∈ ((cfg1.win 6).blk t).view.set
      ↔ ∀ a : Fin 2, win1_6.index t a * S1000x512.size a ≤ (i a).val ∧ (i a).val < win1_6.index t a * S1000x512.size a + S1000x512.size a := by
  show i ∈ ((View.whole main_v54).slice (win1_6.rect t)).set ↔ _
  rw [View.set_slice_whole, Rect.mem_set_unit]
  exact Iff.rfl

/-- Row R of the array is in the block of point R / 1000. -/
theorem cover (i : S50000x512.Idx) :
    ∃ t : Fin cfg1.N, (cfg1.win 6).flush t = true ∧ i ∈ ((cfg1.win 6).blk t).view.set := by
  have h0 : (i 0).val < 50000 := (i 0).isLt
  have h1 : (i 1).val < 512 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, -, -, e0, e1⟩ := blockIndex t
  refine ⟨t, flush1_6 t, ?_⟩
  rw [mem_blk]
  intro a
  match a with
  | ⟨0, _⟩ =>
    show win1_6.index t (0 : Fin 2) * 1000 ≤ (i 0).val ∧ (i 0).val < win1_6.index t (0 : Fin 2) * 1000 + 1000
    rw [e0, ht]; omega
  | ⟨1, _⟩ =>
    show win1_6.index t (1 : Fin 2) * 512 ≤ (i 1).val ∧ (i 1).val < win1_6.index t (1 : Fin 2) * 512 + 512
    rw [e1]; omega

/-- The output array after the region: the specification's output of the arrays the region found. -/
theorem arr1 (c : Dev nD) :
    ((dat1 (F := Ideal) V c).arrAt 6 cfg1.N : (⟨2, ![50000, 512]⟩ : Shape).Idx → EReal)
      = lnOut (V c main_v5_1) (V c main_v50) (V c main_v5_2) (rowOf (V c main_v51)) (rowOf (V c main_v52)) (rowOf (V c main_v53)) :=
  (dat1 (F := Ideal) V c).arrAt_eq_of_cover 6 (target V c) (fun t _ => flushed_eq V c t) cover

end Cert.KernelIdeal.KV

end
-- ==== Proof.RefTerm.lean ====
/-
  The reference program's result as one pure term over its ten arguments: the normalised neighbourhood aggregation
  (a function of the edge table and the basis array), the tail from the two biased projections through the per-head
  combination, the residual, the row normalisation and the positive part, and the composite over the three products.
  Each definition follows the program's operations in their order, with its own evidence and records.
-/
import proofs.«151256_j76828374991621_2_alg».proof.ReferenceIdeal

noncomputable section

namespace Cert.ReferenceIdeal.RefTerm

open Idealize.ShloMosaic
open Cert.ReferenceIdeal

variable {F : FTy → Type} [FloatOps F] [Facts₀]
open Facts₀

/-! ## The aggregation -/

/-- Row 0 of the edge table (the sources) followed by the self loops 0 … 49999. -/
def srcOf (e : (⟨S2x800000, .i32⟩ : BufTy).Contents (Elt F)) : (⟨S850000, .i32⟩ : BufTy).Contents (Elt F) :=
  concatenate S850000 0
    [⟨S800000, shapeCast S800000 (extractStridedSlice S1x800000 ![0, 0] e slices_S2x800000_S1x800000_0_0) shapeCasts_S1x800000_S800000⟩,
     ⟨S50000, iotaInDim S50000 32 0⟩] concatenates_S800000_S50000_S850000_d0

/-- Row 1 of the edge table (the targets) followed by the self loops 0 … 49999. -/
def dstOf (e : (⟨S2x800000, .i32⟩ : BufTy).Contents (Elt F)) : (⟨S850000, .i32⟩ : BufTy).Contents (Elt F) :=
  concatenate S850000 0
    [⟨S800000, shapeCast S800000 (extractStridedSlice S1x800000 ![1, 0] e slices_S2x800000_S1x800000_1_0) shapeCasts_S1x800000_S800000⟩,
     ⟨S50000, iotaInDim S50000 32 0⟩] concatenates_S800000_S50000_S850000_d0

/-- A node list as a column of gather indices: a negative entry wrapped by the node count. -/
def wrapIdx (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The in-degree with self loops: ones scatter-added at the targets. -/
def degOf (d : (⟨S850000, .i32⟩ : BufTy).Contents (Elt F)) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- deg^(-1/2) where the degree is positive, else zero. -/
def dinvOf (d : (⟨S850000, .i32⟩ : BufTy).Contents (Elt F)) : FVec F S50000 .f32 :=
  select (cmpf .ogt (degOf d) (broadcastInDim S50000 ![] bcast_S_S50000 (constant S_ .f32 0x00000000#32)))
    (Host.rsqrt (maximumf (degOf d) (broadcastInDim S50000 ![] bcast_S_S50000 (constant S_ .f32 0x3F800000#32))))
    (broadcastInDim S50000 ![] bcast_S_S50000 (id (constant S_ .f32 0x00000000#32)))

/-- The edge weights dinv[src] · dinv[dst]. -/
def normOf (e : (⟨S2x800000, .i32⟩ : BufTy).Contents (Elt F)) : FVec F S850000 .f32 :=
  mulf (Host.gather gather_S50000_S850000x1_S850000_n_0_n_n_0_1_1 (dinvOf (dstOf e)) (wrapIdx (srcOf e)))
    (Host.gather gather_S50000_S850000x1_S850000_n_0_n_n_0_1_1 (dinvOf (dstOf e)) (wrapIdx (dstOf e)))

/-- The symmetric-normalised aggregation of the basis rows over the edges with self loops. -/
def refAgg (e : (⟨S2x800000, .i32⟩ : BufTy).Contents (Elt F)) (bases : FVec F S50000x256 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 (dstOf e))
    (mulf (Host.gather gather_S50000x256_S850000x1_S850000x256_1_0_n_n_0_1_1256 bases (wrapIdx (srcOf e)))
      (broadcastInDim S850000x256 ![0, 1] bcast_S850000x1_S850000x256_0_1
        (broadcastInDim S850000x1 ![0] bcast_S850000_S850000x1_0 (normOf e))))

/-! ## The tail -/

/-- A vector of 32 entries repeated down the 50000 rows. -/
def rows32 (v : FVec F S32 .f32) : FVec F S50000x32 .f32 :=
  broadcastInDim S50000x32 ![0, 1] bcast_S1x32_S50000x32_0_1 (broadcastInDim S1x32 ![1] bcast_S32_S1x32_1 v)

/-- A vector of 512 entries repeated down the 50000 rows. -/
def rows512 (v : FVec F S512 .f32) : FVec F S50000x512 .f32 :=
  broadcastInDim S50000x512 ![0, 1] bcast_S1x512_S50000x512_0_1 (broadcastInDim S1x512 ![1] bcast_S512_S1x512_1 v)

/-- The row sums as a column. -/
def rowSum (a : FVec F S50000x512 .f32) : FVec F S50000x1 .f32 :=
  broadcastInDim S50000x1 ![0] bcast_S50000_S50000x1_0
    (Host.reduceAdd a (constant S_ .f32 0x00000000#32) reducesTo_S50000x512_S50000_d1 h_S_)

/-- The row means as a column: the row sum over the word 512.0. -/
def rowMean (a : FVec F S50000x512 .f32) : FVec F S50000x1 .f32 :=
  Host.divf (rowSum a) (broadcastInDim S50000x1 ![] bcast_S_S50000x1 (constant S_ .f32 0x44000000#32))

/-- The divisor of the variance: the word 512.0 less the degrees of freedom removed, here the integer 0. -/
def varDen : FVec F S_ .f32 :=
  subf (constant S_ .f32 0x44000000#32) (sitofp .f32 (constantI S_ 32 0#32))

/-- The row variances as a column: the mean recomputed, the squared deviations summed and divided,
    not-a-number where the divisor is not positive. -/
def varOf (a : FVec F S50000x512 .f32) : FVec F S50000x1 .f32 :=
  (fun p a b => select (broadcastInDim S50000x1 ![] bcast_S_S50000x1 p) a b)
    (cmpf .ogt (varDen (F := F)) (constant S_ .f32 0x00000000#32))
    (Host.divf
      (rowSum
        (mulf (subf a (broadcastInDim S50000x512 ![0, 1] bcast_S50000x1_S50000x512_0_1 (rowMean a)))
          (subf a (broadcastInDim S50000x512 ![0, 1] bcast_S50000x1_S50000x512_0_1 (rowMean a)))))
      (broadcastInDim S50000x1 ![] bcast_S_S50000x1 (varDen (F := F))))
    (broadcastInDim S50000x1 ![] bcast_S_S50000x1 (id (constant S_ .f32 0x7FC00000#32)))

/-- The per-head combination: the biased combination weights as [50000, 8, 4], the aggregation as [50000, 4, 64],
    contracted over the 4 bases batch by batch, the result back at [50000, 512]. -/
def convOf (comb : FVec F S50000x32 .f32) (agg : FVec F S50000x256 .f32) : FVec F S50000x512 .f32 :=
  shapeCast S50000x512
    (Host.dotGeneral dot_S50000x8x4_S50000x4x64_S50000x8x64_2_1_1_2_0_0 none
      (shapeCast S50000x8x4 comb shapeCasts_S50000x32_S50000x8x4)
      (shapeCast S50000x4x64 agg shapeCasts_S50000x256_S50000x4x64))
    shapeCasts_S50000x8x64_S50000x512

/-- The rows before normalisation: combination, output bias, residual product, residual bias, added in that order. -/
def preOf (mmC : FVec F S50000x32 .f32) (bc : FVec F S32 .f32) (agg : FVec F S50000x256 .f32) (cb : FVec F S512 .f32)
    (mmR : FVec F S50000x512 .f32) (br : FVec F S512 .f32) : FVec F S50000x512 .f32 :=
  addf (addf (addf (convOf (addf mmC (rows32 bc)) agg) (rows512 cb)) mmR) (rows512 br)

/-- Row normalisation, scale, shift and positive part of an array of rows. -/
def normOut (a : FVec F S50000x512 .f32) (g b : FVec F S512 .f32) : FVec F S50000x512 .f32 :=
  maximumf
    (addf
      (mulf
        (mulf (subf a (broadcastInDim S50000x512 ![0, 1] bcast_S50000x1_S50000x512_0_1 (rowMean a)))
          (broadcastInDim S50000x512 ![0, 1] bcast_S50000x1_S50000x512_0_1
            (Host.rsqrt (addf (varOf a) (broadcastInDim S50000x1 ![] bcast_S_S50000x1 (constant S_ .f32 0x3727C5AC#32))))))
        (rows512 g))
      (rows512 b))
    (broadcastInDim S50000x512 ![] bcast_S_S50000x512 (constant S_ .f32 0x00000000#32))

/-- Everything after the three products and the aggregation. -/
def refTail (mmC : FVec F S50000x32 .f32) (bc : FVec F S32 .f32) (agg : FVec F S50000x256 .f32) (cb : FVec F S512 .f32)
    (mmR : FVec F S50000x512 .f32) (br g b : FVec F S512 .f32) : FVec F S50000x512 .f32 :=
  normOut (preOf mmC bc agg cb mmR br) g b

/-- The reference's result over its ten arguments. -/
def refOut (x : FVec F S50000x512 .f32) (e : (⟨S2x800000, .i32⟩ : BufTy).Contents (Elt F)) (wb : FVec F S512x256 .f32)
    (wc : FVec F S512x32 .f32) (bc : FVec F S32 .f32) (cb : FVec F S512 .f32) (wr : FVec F S512x512 .f32)
    (br g b : FVec F S512 .f32) : FVec F S50000x512 .f32 :=
  refTail (Host.dotGeneral dot_S50000x512_S512x32_S50000x32_1_0_0_1_n_n none x wc) bc
    (refAgg e (Host.dotGeneral dot_S50000x512_S512x256_S50000x256_1_0_0_1_n_n none x wb)) cb
    (Host.dotGeneral dot_S50000x512_S512x512_S50000x512_1_0_0_1_n_n none x wr) br g b

end Cert.ReferenceIdeal.RefTerm

end
-- ==== Proof.RefRun0.lean ====
/-
  The reference's first window as a list of its operations: the sixty statements of the first part of the entry
  function, the one call among them (the select against a broadcast zero) replaced by its callee's three operations
  over the call's buffer record; and what the buffers the second window reads hold after them.
-/
import proofs.«151256_j76828374991621_2_alg».proof.ReferenceIdeal
import Idealize.ShloMosaic.Lib.StableHlo.Run
import proofs.«151256_j76828374991621_2_alg».proof.Proof.RefTerm

noncomputable section

namespace Cert.ReferenceIdeal.HandRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-- The first window's 62 operations, in order: the degree count and its inverse square root (with the guarded
    select unfolded at its call), the two gathered factors and their product, the basis projection, its gather,
    scaling and scatter-add, the combination projection and the first broadcast of its bias. -/
abbrev ops0 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (.of main_cst_3) main_call0.v0 id,
    TRef.unary main_call0.v0 main_call0.v1 (broadcastInDim S50000 ![] bcast_S_S50000),
    TRef.ternary (.of main_v12) (.of main_v15) main_call0.v1 main_call0.v2 select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    binary main_arg0 main_arg2 main_v32 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x256 ![0, 1] bcast_S850000x1_S850000x256_0_1 : (⟨S850000x1, .f32⟩ : BufTy).Contents (Elt F) → (⟨S850000x256, .f32⟩ : BufTy).Contents (Elt F)),
    binary main_v39 main_v41 main_v42 (mulf : (⟨S850000x256, .f32⟩ : BufTy).Contents (Elt F) → (⟨S850000x256, .f32⟩ : BufTy).Contents (Elt F) → (⟨S850000x256, .f32⟩ : BufTy).Contents (Elt F)),
    nullary main_cst_9 (constant S_ .f32 0x00000000#32),
    unary main_cst_9 main_v43 (broadcastInDim S50000x256 ![] bcast_S_S50000x256 : (⟨S_, .f32⟩ : BufTy).Contents (Elt F) → (⟨S50000x256, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    binary main_arg0 main_arg3 main_v46 ((fun l r => Host.dotGeneral dot_S50000x512_S512x32_S50000x32_1_0_0_1_n_n none l r) : (⟨S50000x512, .f32⟩ : BufTy).Contents (Elt F) → (⟨S512x32, .f32⟩ : BufTy).Contents (Elt F) → (⟨S50000x32, .f32⟩ : BufTy).Contents (Elt F)),
    unary main_arg4 main_v47 (broadcastInDim S1x32 ![1] bcast_S32_S1x32_1 : (⟨S32, .f32⟩ : BufTy).Contents (Elt F) → (⟨S1x32, .f32⟩ : BufTy).Contents (Elt F)) ]

set_option maxRecDepth 4096 in
/-- The first window is that straight line: the callee's definition unfolded at its call, both sides one chain of
    steps once sequencing is reassociated. -/
theorem part0_eq (c : Dev nD) : main_part0 (F := F) c = seq ops0 := by
  simp only [main_part0, fn_where.body, seq, bind_assoc, pure_bind]
  rfl

/-! ## What the first window leaves

No operation of the window writes an argument buffer; the three buffers the second window reads besides the
arguments hold the combination product, the first broadcast of the combination bias, and the aggregation of the
basis product. The host operations whose bodies are folds stay folded while the two sides are compared. -/

open Cert.ReferenceIdeal.RefTerm

theorem arg0_eq0 (V : Valuation τ sig (Elt F)) :
    after ops0 V (main_arg0 : DevRef τ sig) = V (main_arg0 : DevRef τ sig) := rfl
theorem arg1_eq0 (V : Valuation τ sig (Elt F)) :
    after ops0 V (main_arg1 : DevRef τ sig) = V (main_arg1 : DevRef τ sig) := rfl
theorem arg2_eq0 (V : Valuation τ sig (Elt F)) :
    after ops0 V (main_arg2 : DevRef τ sig) = V (main_arg2 : DevRef τ sig) := rfl
theorem arg3_eq0 (V : Valuation τ sig (Elt F)) :
    after ops0 V (main_arg3 : DevRef τ sig) = V (main_arg3 : DevRef τ sig) := rfl
theorem arg4_eq0 (V : Valuation τ sig (Elt F)) :
    after ops0 V (main_arg4 : DevRef τ sig) = V (main_arg4 : DevRef τ sig) := rfl
theorem arg5_eq0 (V : Valuation τ sig (Elt F)) :
    after ops0 V (main_arg5 : DevRef τ sig) = V (main_arg5 : DevRef τ sig) := rfl
theorem arg6_eq0 (V : Valuation τ sig (Elt F)) :
    after ops0 V (main_arg6 : DevRef τ sig) = V (main_arg6 : DevRef τ sig) := rfl
theorem arg7_eq0 (V : Valuation τ sig (Elt F)) :
    after ops0 V (main_arg7 : DevRef τ sig) = V (main_arg7 : DevRef τ sig) := rfl
theorem arg8_eq0 (V : Valuation τ sig (Elt F)) :
    after ops0 V (main_arg8 : DevRef τ sig) = V (main_arg8 : DevRef τ sig) := rfl
theorem arg9_eq0 (V : Valuation τ sig (Elt F)) :
    after ops0 V (main_arg9 : DevRef τ sig) = V (main_arg9 : DevRef τ sig) := rfl

/-- The combination product: the node features by the combination weights. -/
theorem v46_eq0 (V : Valuation τ sig (Elt F)) :
    after ops0 V (main_v46 : DevRef τ sig)
      = Host.dotGeneral dot_S50000x512_S512x32_S50000x32_1_0_0_1_n_n none (V (main_arg0 : DevRef τ sig)) (V (main_arg3 : DevRef τ sig)) := rfl

/-- The combination bias as one row. -/
theorem v47_eq0 (V : Valuation τ sig (Elt F)) :
    after ops0 V (main_v47 : DevRef τ sig)
      = broadcastInDim S1x32 ![1] bcast_S32_S1x32_1 (V (main_arg4 : DevRef τ sig)) := rfl

attribute [local irreducible] Host.reduceAdd Host.gather Host.scatterAdd in
set_option maxRecDepth 8192 in
set_option maxHeartbeats 1000000 in
/-- The aggregation of the basis product over the edge table: each operation's result read at its own buffer in one
    pass, the composed term then the aggregation's definition unfolded. -/
theorem v45_eq0 (V : Valuation τ sig (Elt F)) :
    after ops0 V (main_v45 : DevRef τ sig)
      = refAgg (V (main_arg1 : DevRef τ sig))
          (Host.dotGeneral dot_S50000x512_S512x256_S50000x256_1_0_0_1_n_n none (V (main_arg0 : DevRef τ sig)) (V (main_arg2 : DevRef τ sig))) := by
  after_results_simp
  rfl

end Cert.ReferenceIdeal.HandRun

end
-- ==== Proof.RefRun1.lean ====
/-
  The reference's second window as a list of its operations: the thirty-seven statements of the second part of the
  entry function, its two calls (the row variance, which itself calls a guarded select, and the positive part)
  replaced by their callees' operations over the calls' buffer records; and what the result buffer holds after them,
  as a term of the buffers the window reads.
-/
import proofs.«151256_j76828374991621_2_alg».proof.ReferenceIdeal
import Idealize.ShloMosaic.Lib.StableHlo.Run
import proofs.«151256_j76828374991621_2_alg».proof.Proof.RefTerm

noncomputable section

namespace Cert.ReferenceIdeal.HandRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-- The second window's 61 operations, in order: the combination's bias and reshape, the per-head contraction, the
    output bias, the residual projection and its bias, the row mean, the row variance (twenty operations and the
    three of its guarded select), the normalisation, scale and shift, and the positive part's three. -/
abbrev ops1 : List (HloOp τ sig (Elt F)) :=
  [ unary main_v47 main_v48 (broadcastInDim S50000x32 ![0, 1] bcast_S1x32_S50000x32_0_1 : (⟨S1x32, .f32⟩ : BufTy).Contents (Elt F) → (⟨S50000x32, .f32⟩ : BufTy).Contents (Elt F)),
    binary main_v46 main_v48 main_v49 (addf : (⟨S50000x32, .f32⟩ : BufTy).Contents (Elt F) → (⟨S50000x32, .f32⟩ : BufTy).Contents (Elt F) → (⟨S50000x32, .f32⟩ : BufTy).Contents (Elt F)),
    reshape main_v49 main_v50 rfl shapeCasts_S50000x32_S50000x8x4,
    reshape main_v45 main_v51 rfl shapeCasts_S50000x256_S50000x4x64,
    binary main_v50 main_v51 main_v52 ((fun l r => Host.dotGeneral dot_S50000x8x4_S50000x4x64_S50000x8x64_2_1_1_2_0_0 none l r) : (⟨S50000x8x4, .f32⟩ : BufTy).Contents (Elt F) → (⟨S50000x4x64, .f32⟩ : BufTy).Contents (Elt F) → (⟨S50000x8x64, .f32⟩ : BufTy).Contents (Elt F)),
    reshape main_v52 main_v53 rfl shapeCasts_S50000x8x64_S50000x512,
    unary main_arg5 main_v54 (broadcastInDim S1x512 ![1] bcast_S512_S1x512_1 : (⟨S512, .f32⟩ : BufTy).Contents (Elt F) → (⟨S1x512, .f32⟩ : BufTy).Contents (Elt F)),
    unary main_v54 main_v55 (broadcastInDim S50000x512 ![0, 1] bcast_S1x512_S50000x512_0_1 : (⟨S1x512, .f32⟩ : BufTy).Contents (Elt F) → (⟨S50000x512, .f32⟩ : BufTy).Contents (Elt F)),
    binary main_v53 main_v55 main_v56 (addf : (⟨S50000x512, .f32⟩ : BufTy).Contents (Elt F) → (⟨S50000x512, .f32⟩ : BufTy).Contents (Elt F) → (⟨S50000x512, .f32⟩ : BufTy).Contents (Elt F)),
    binary main_arg0 main_arg6 main_v57 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    binary main_v56 main_v57 main_v58 (addf : (⟨S50000x512, .f32⟩ : BufTy).Contents (Elt F) → (⟨S50000x512, .f32⟩ : BufTy).Contents (Elt F) → (⟨S50000x512, .f32⟩ : BufTy).Contents (Elt F)),
    unary main_arg7 main_v59 (broadcastInDim S1x512 ![1] bcast_S512_S1x512_1 : (⟨S512, .f32⟩ : BufTy).Contents (Elt F) → (⟨S1x512, .f32⟩ : BufTy).Contents (Elt F)),
    unary main_v59 main_v60 (broadcastInDim S50000x512 ![0, 1] bcast_S1x512_S50000x512_0_1 : (⟨S1x512, .f32⟩ : BufTy).Contents (Elt F) → (⟨S50000x512, .f32⟩ : BufTy).Contents (Elt F)),
    binary main_v58 main_v60 main_v61 (addf : (⟨S50000x512, .f32⟩ : BufTy).Contents (Elt F) → (⟨S50000x512, .f32⟩ : BufTy).Contents (Elt F) → (⟨S50000x512, .f32⟩ : BufTy).Contents (Elt F)),
    nullary main_cst_10 (constant S_ .f32 0x00000000#32),
    binary main_v61 main_cst_10 main_v62 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v62 main_v63 (broadcastInDim S50000x1 ![0] bcast_S50000_S50000x1_0 : (⟨S50000, .f32⟩ : BufTy).Contents (Elt F) → (⟨S50000x1, .f32⟩ : BufTy).Contents (Elt F)),
    nullary main_cst_11 (constant S_ .f32 0x44000000#32),
    unary main_cst_11 main_v64 (broadcastInDim S50000x1 ![] bcast_S_S50000x1 : (⟨S_, .f32⟩ : BufTy).Contents (Elt F) → (⟨S50000x1, .f32⟩ : BufTy).Contents (Elt F)),
    binary main_v63 main_v64 main_v65 (Host.divf : (⟨S50000x1, .f32⟩ : BufTy).Contents (Elt F) → (⟨S50000x1, .f32⟩ : BufTy).Contents (Elt F) → (⟨S50000x1, .f32⟩ : BufTy).Contents (Elt F)),
    nullary main_c_12 (constantI S_ 32 0#32),
    TRef.nullary main_call1.cst (constant S_ .f32 0x00000000#32),
    TRef.binary (.of main_v61) main_call1.cst main_call1.v0 (fun x v => Host.reduceAdd x v reducesTo_S50000x512_S50000_d1 h_S_),
    TRef.unary main_call1.v0 main_call1.v1 (broadcastInDim S50000x1 ![0] bcast_S50000_S50000x1_0),
    TRef.nullary main_call1.cst_0 (constant S_ .f32 0x44000000#32),
    TRef.unary main_call1.cst_0 main_call1.v2 (broadcastInDim S50000x1 ![] bcast_S_S50000x1),
    TRef.binary main_call1.v1 main_call1.v2 main_call1.v3 Host.divf,
    TRef.unary main_call1.v3 main_call1.v4 (broadcastInDim S50000x512 ![0, 1] bcast_S50000x1_S50000x512_0_1),
    TRef.binary (.of main_v61) main_call1.v4 main_call1.v5 subf,
    TRef.binary main_call1.v5 main_call1.v5 main_call1.v6 mulf,
    TRef.unary (.of main_c_12) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x512_S50000_d1 h_S_),
    TRef.unary main_call1.v9 main_call1.v10 (broadcastInDim S50000x1 ![0] bcast_S50000_S50000x1_0),
    TRef.unary main_call1.v8 main_call1.v11 (broadcastInDim S50000x1 ![] bcast_S_S50000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S50000x1 ![] bcast_S_S50000x1),
    TRef.ternary main_call1.v13 main_call1.v12 main_call1.call0.v1 main_call1.call0.v2 (fun p a b => select (broadcastInDim S50000x1 ![] bcast_S_S50000x1 p) a b),
    unary main_v65 main_v67 (broadcastInDim S50000x512 ![0, 1] bcast_S50000x1_S50000x512_0_1 : (⟨S50000x1, .f32⟩ : BufTy).Contents (Elt F) → (⟨S50000x512, .f32⟩ : BufTy).Contents (Elt F)),
    binary main_v61 main_v67 main_v68 (subf : (⟨S50000x512, .f32⟩ : BufTy).Contents (Elt F) → (⟨S50000x512, .f32⟩ : BufTy).Contents (Elt F) → (⟨S50000x512, .f32⟩ : BufTy).Contents (Elt F)),
    nullary main_cst_13 (constant S_ .f32 0x3727C5AC#32),
    unary main_cst_13 main_v69 (broadcastInDim S50000x1 ![] bcast_S_S50000x1 : (⟨S_, .f32⟩ : BufTy).Contents (Elt F) → (⟨S50000x1, .f32⟩ : BufTy).Contents (Elt F)),
    binary main_v66 main_v69 main_v70 (addf : (⟨S50000x1, .f32⟩ : BufTy).Contents (Elt F) → (⟨S50000x1, .f32⟩ : BufTy).Contents (Elt F) → (⟨S50000x1, .f32⟩ : BufTy).Contents (Elt F)),
    unary main_v70 main_v71 (Host.rsqrt : (⟨S50000x1, .f32⟩ : BufTy).Contents (Elt F) → (⟨S50000x1, .f32⟩ : BufTy).Contents (Elt F)),
    unary main_v71 main_v72 (broadcastInDim S50000x512 ![0, 1] bcast_S50000x1_S50000x512_0_1 : (⟨S50000x1, .f32⟩ : BufTy).Contents (Elt F) → (⟨S50000x512, .f32⟩ : BufTy).Contents (Elt F)),
    binary main_v68 main_v72 main_v73 (mulf : (⟨S50000x512, .f32⟩ : BufTy).Contents (Elt F) → (⟨S50000x512, .f32⟩ : BufTy).Contents (Elt F) → (⟨S50000x512, .f32⟩ : BufTy).Contents (Elt F)),
    unary main_arg8 main_v74 (broadcastInDim S1x512 ![1] bcast_S512_S1x512_1 : (⟨S512, .f32⟩ : BufTy).Contents (Elt F) → (⟨S1x512, .f32⟩ : BufTy).Contents (Elt F)),
    unary main_v74 main_v75 (broadcastInDim S50000x512 ![0, 1] bcast_S1x512_S50000x512_0_1 : (⟨S1x512, .f32⟩ : BufTy).Contents (Elt F) → (⟨S50000x512, .f32⟩ : BufTy).Contents (Elt F)),
    binary main_v73 main_v75 main_v76 (mulf : (⟨S50000x512, .f32⟩ : BufTy).Contents (Elt F) → (⟨S50000x512, .f32⟩ : BufTy).Contents (Elt F) → (⟨S50000x512, .f32⟩ : BufTy).Contents (Elt F)),
    unary main_arg9 main_v77 (broadcastInDim S1x512 ![1] bcast_S512_S1x512_1 : (⟨S512, .f32⟩ : BufTy).Contents (Elt F) → (⟨S1x512, .f32⟩ : BufTy).Contents (Elt F)),
    unary main_v77 main_v78 (broadcastInDim S50000x512 ![0, 1] bcast_S1x512_S50000x512_0_1 : (⟨S1x512, .f32⟩ : BufTy).Contents (Elt F) → (⟨S50000x512, .f32⟩ : BufTy).Contents (Elt F)),
    binary main_v76 main_v78 main_v79 (addf : (⟨S50000x512, .f32⟩ : BufTy).Contents (Elt F) → (⟨S50000x512, .f32⟩ : BufTy).Contents (Elt F) → (⟨S50000x512, .f32⟩ : BufTy).Contents (Elt F)),
    TRef.nullary main_call2.cst (constant S_ .f32 0x00000000#32),
    TRef.unary main_call2.cst main_call2.v0 (broadcastInDim S50000x512 ![] bcast_S_S50000x512),
    TRef.binary (.of main_v79) main_call2.v0 main_call2.v1 maximumf ]

set_option maxRecDepth 4096 in
/-- The second window is that straight line: the callees' definitions unfolded at their calls, both sides one chain
    of steps once sequencing is reassociated. -/
theorem part1_eq (c : Dev nD) : main_part1 (F := F) c = seq ops1 := by
  simp only [main_part1, fn_var.body, fn_where_0.body, fn_relu.body, seq, bind_assoc, pure_bind]

/-! ## What the second window leaves

No operation of the window writes an argument buffer; the result buffer holds the normalised, scaled, shifted and
clipped rows of the sum of the per-head combination, the output bias, the residual product and the residual bias,
as a term of the three buffers the first window left and of the arguments. The host operations whose bodies are
folds stay folded while the two sides are compared. -/

open Cert.ReferenceIdeal.RefTerm

theorem arg0_eq1 (V : Valuation τ sig (Elt F)) :
    after ops1 V (main_arg0 : DevRef τ sig) = V (main_arg0 : DevRef τ sig) := rfl
theorem arg1_eq1 (V : Valuation τ sig (Elt F)) :
    after ops1 V (main_arg1 : DevRef τ sig) = V (main_arg1 : DevRef τ sig) := rfl
theorem arg2_eq1 (V : Valuation τ sig (Elt F)) :
    after ops1 V (main_arg2 : DevRef τ sig) = V (main_arg2 : DevRef τ sig) := rfl
theorem arg3_eq1 (V : Valuation τ sig (Elt F)) :
    after ops1 V (main_arg3 : DevRef τ sig) = V (main_arg3 : DevRef τ sig) := rfl
theorem arg4_eq1 (V : Valuation τ sig (Elt F)) :
    after ops1 V (main_arg4 : DevRef τ sig) = V (main_arg4 : DevRef τ sig) := rfl
theorem arg5_eq1 (V : Valuation τ sig (Elt F)) :
    after ops1 V (main_arg5 : DevRef τ sig) = V (main_arg5 : DevRef τ sig) := rfl
theorem arg6_eq1 (V : Valuation τ sig (Elt F)) :
    after ops1 V (main_arg6 : DevRef τ sig) = V (main_arg6 : DevRef τ sig) := rfl
theorem arg7_eq1 (V : Valuation τ sig (Elt F)) :
    after ops1 V (main_arg7 : DevRef τ sig) = V (main_arg7 : DevRef τ sig) := rfl
theorem arg8_eq1 (V : Valuation τ sig (Elt F)) :
    after ops1 V (main_arg8 : DevRef τ sig) = V (main_arg8 : DevRef τ sig) := rfl
theorem arg9_eq1 (V : Valuation τ sig (Elt F)) :
    after ops1 V (main_arg9 : DevRef τ sig) = V (main_arg9 : DevRef τ sig) := rfl

attribute [local irreducible] Host.reduceAdd Host.gather Host.scatterAdd in
set_option maxRecDepth 8192 in
set_option maxHeartbeats 1000000 in
/-- The result buffer after the second window, from any contents `W`: each operation's result read at its own buffer
    in one pass, the composed term then the tail's definitions unfolded. -/
theorem v80_eq1 (W : Valuation τ sig (Elt F)) :
    after ops1 W (main_v80 : DevRef τ sig)
      = normOut
          (addf (addf (addf
              (convOf (addf (W (main_v46 : DevRef τ sig)) (broadcastInDim S50000x32 ![0, 1] bcast_S1x32_S50000x32_0_1 (W (main_v47 : DevRef τ sig))))
                (W (main_v45 : DevRef τ sig)))
              (rows512 (W (main_arg5 : DevRef τ sig))))
            (Host.dotGeneral dot_S50000x512_S512x512_S50000x512_1_0_0_1_n_n none (W (main_arg0 : DevRef τ sig)) (W (main_arg6 : DevRef τ sig))))
            (rows512 (W (main_arg7 : DevRef τ sig))))
          (W (main_arg8 : DevRef τ sig)) (W (main_arg9 : DevRef τ sig)) := by
  after_results_simp
  rfl

end Cert.ReferenceIdeal.HandRun

end
-- ==== Proof.RefRun.lean ====
/-
  The reference program's run, read back. The entry function is its two windows in order, each a straight line of
  host operations (the calls unfolded into their callees' operations); so every weakly fair execution terminates and
  leaves each buffer at the fold of the operations' results over the launch contents. At the ten argument buffers
  that fold is the launch contents (no operation writes them); at the result buffer it is the composed pure term of
  the ten arguments.
-/
import proofs.«151256_j76828374991621_2_alg».proof.Proof.RefRun0
import proofs.«151256_j76828374991621_2_alg».proof.Proof.RefRun1

noncomputable section

namespace Cert.ReferenceIdeal.HandRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The entry function's 123 operations, in order: the first window's, then the second's. -/
abbrev ops : List (HloOp τ sig (Elt F)) := ops0 ++ ops1

/-- The entry function is that straight line: its two windows in order, each the line of its own operations. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    binary_bufs_sub .., unary_bufs_sub ..⟩

theorem ops1_sub : (ops1 : List (HloOp τ sig (Elt F))).Forall fun op => op.bufs ⊆ tcRefs τ sig :=
  ⟨unary_bufs_sub .., binary_bufs_sub .., reshape_bufs_sub .., reshape_bufs_sub .., binary_bufs_sub .., reshape_bufs_sub ..,
    unary_bufs_sub .., unary_bufs_sub .., binary_bufs_sub .., binary_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

theorem ops_sub : (ops : List (HloOp τ sig (Elt F))).Forall fun op => op.bufs ⊆ tcRefs τ sig :=
  List.forall_append.mpr ⟨ops0_sub, ops1_sub⟩

/-- Every operation of the first window determines its results. -/
theorem ops0_fresh : ∀ op ∈ (ops0 : List (HloOp τ sig (Elt F))), op.fresh = ∅ := by
  intro _ h; (repeat (cases h with | head => rfl | tail _ h => ?_)); exact nomatch h

/-- Every operation of the second window determines its results. -/
theorem ops1_fresh : ∀ op ∈ (ops1 : List (HloOp τ sig (Elt F))), op.fresh = ∅ := by
  intro _ h; (repeat (cases h with | head => rfl | tail _ h => ?_)); exact nomatch h

/-- At the compiled mesh, for any float values, from any memory with zero counters: every weakly fair execution of
    the entry function on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.mem_append.mp h).elim (ops0_fresh op) (ops1_fresh op))

/-! ## The fold at the arguments and at the result

The fold over the whole line is the second window's from the first window's; at each buffer of interest both are
known, so the whole is their composition. -/

theorem arg0_eq (V : Valuation τ sig (Elt F)) :
    after ops V (main_arg0 : DevRef τ sig) = V (main_arg0 : DevRef τ sig) := by
  rw [after_append, arg0_eq1, arg0_eq0]
theorem arg1_eq (V : Valuation τ sig (Elt F)) :
    after ops V (main_arg1 : DevRef τ sig) = V (main_arg1 : DevRef τ sig) := by
  rw [after_append, arg1_eq1, arg1_eq0]
theorem arg2_eq (V : Valuation τ sig (Elt F)) :
    after ops V (main_arg2 : DevRef τ sig) = V (main_arg2 : DevRef τ sig) := by
  rw [after_append, arg2_eq1, arg2_eq0]
theorem arg3_eq (V : Valuation τ sig (Elt F)) :
    after ops V (main_arg3 : DevRef τ sig) = V (main_arg3 : DevRef τ sig) := by
  rw [after_append, arg3_eq1, arg3_eq0]
theorem arg4_eq (V : Valuation τ sig (Elt F)) :
    after ops V (main_arg4 : DevRef τ sig) = V (main_arg4 : DevRef τ sig) := by
  rw [after_append, arg4_eq1, arg4_eq0]
theorem arg5_eq (V : Valuation τ sig (Elt F)) :
    after ops V (main_arg5 : DevRef τ sig) = V (main_arg5 : DevRef τ sig) := by
  rw [after_append, arg5_eq1, arg5_eq0]
theorem arg6_eq (V : Valuation τ sig (Elt F)) :
    after ops V (main_arg6 : DevRef τ sig) = V (main_arg6 : DevRef τ sig) := by
  rw [after_append, arg6_eq1, arg6_eq0]
theorem arg7_eq (V : Valuation τ sig (Elt F)) :
    after ops V (main_arg7 : DevRef τ sig) = V (main_arg7 : DevRef τ sig) := by
  rw [after_append, arg7_eq1, arg7_eq0]
theorem arg8_eq (V : Valuation τ sig (Elt F)) :
    after ops V (main_arg8 : DevRef τ sig) = V (main_arg8 : DevRef τ sig) := by
  rw [after_append, arg8_eq1, arg8_eq0]
theorem arg9_eq (V : Valuation τ sig (Elt F)) :
    after ops V (main_arg9 : DevRef τ sig) = V (main_arg9 : DevRef τ sig) := by
  rw [after_append, arg9_eq1, arg9_eq0]

/-- The result buffer after the whole line is the reference's composed term of the ten arguments' contents: the second
    window's reading at the first window's contents, the three buffers it reads and the arguments replaced by what the
    first window left there; what remains is the composed term with its definitions unfolded. -/
theorem out_eq (V : Valuation τ sig (Elt F)) :
    after ops V (main_v80 : DevRef τ sig)
      = Cert.ReferenceIdeal.RefTerm.refOut (V (main_arg0 : DevRef τ sig)) (V (main_arg1 : DevRef τ sig))
          (V (main_arg2 : DevRef τ sig)) (V (main_arg3 : DevRef τ sig)) (V (main_arg4 : DevRef τ sig))
          (V (main_arg5 : DevRef τ sig)) (V (main_arg6 : DevRef τ sig)) (V (main_arg7 : DevRef τ sig))
          (V (main_arg8 : DevRef τ sig)) (V (main_arg9 : DevRef τ sig)) := by
  rw [after_append, v80_eq1, v45_eq0, v46_eq0, v47_eq0, arg0_eq0, arg5_eq0, arg6_eq0, arg7_eq0, arg8_eq0, arg9_eq0]
  rfl

end Cert.ReferenceIdeal.HandRun

end
-- ==== Proof.RefProducts.lean ====
/-
  The reference's products, read entry by entry at the ideal values.

  Each of its three dense products (the node features against the basis weights, the combination weights and the
  residual weights) is the specification's projection: entry (r, c) is the sum over the 512 input features of
  x(r, k) · W(k, c). Its batched product of the combination weights [50000, 8, 4] with the aggregation
  [50000, 4, 64] reads, at (n, h, f), the sum over the 4 bases of L(n, h, k) · R(n, k, f). Its aggregation of the
  basis array over the edge table is the specification's: the same operations on the same arguments.
-/
import proofs.«151256_j76828374991621_2_alg».proof.ReferenceIdeal
import proofs.«151256_j76828374991621_2_alg».proof.Proof.Spec
import proofs.«151256_j76828374991621_2_alg».proof.Proof.LibPlainProduct
import proofs.«151256_j76828374991621_2_alg».proof.Proof.RefTerm
import Idealize.ShloMosaic.Lib.StackMember
import Idealize.ShloMosaic.Lib.ValueIdx
import Idealize.ShloMosaic.PureOps.Ideal.Laws

noncomputable section

open scoped BigOperators

namespace Cert.ReferenceIdeal.RefProducts

open Idealize.ShloMosaic Idealize.ShloMosaic.ValueIdx
open Cert.ReferenceIdeal Cert.EG

variable [Facts₀]

/-- Every index of a matrix is the pair of a row below the first extent and a column below the second. -/
theorem exists_ix2 {n0 n1 : ℕ} (i : (⟨2, ![n0, n1]⟩ : Shape).Idx) : ∃ (a : Fin n0) (b : Fin n1), i = ix2 a b :=
  ⟨i 0, i 1, eq_ix2 i⟩

/-- The product with the basis weights is the projection: entry (r, c) is Σ_k x(r, k) · W(k, c). -/
theorem dotB_eq (x : FVec Ideal S50000x512 .f32) (w : FVec Ideal S512x256 .f32) :
    Host.dotGeneral dot_S50000x512_S512x256_S50000x256_1_0_0_1_n_n none x w = proj x w := by
  funext i
  obtain ⟨a, b, rfl⟩ := exists_ix2 (n0 := 50000) (n1 := 256) i
  show Host.dotGeneral (Cert.LibPlainProduct.plainDims Facts₀.dot_S50000x512_S512x256_S50000x256_1_0_0_1_n_n_wf) none x w
    (ix2 a b) = ∑ c : Fin 512, x (ix2 a c) * w (ix2 c b)
  exact Cert.LibPlainProduct.dotGeneral_plain_apply _ none x w a b

/-- The product with the combination weights is the projection. -/
theorem dotC_eq (x : FVec Ideal S50000x512 .f32) (w : FVec Ideal S512x32 .f32) :
    Host.dotGeneral dot_S50000x512_S512x32_S50000x32_1_0_0_1_n_n none x w = proj x w := by
  funext i
  obtain ⟨a, b, rfl⟩ := exists_ix2 (n0 := 50000) (n1 := 32) i
  show Host.dotGeneral (Cert.LibPlainProduct.plainDims Facts₀.dot_S50000x512_S512x32_S50000x32_1_0_0_1_n_n_wf) none x w
    (ix2 a b) = ∑ c : Fin 512, x (ix2 a c) * w (ix2 c b)
  exact Cert.LibPlainProduct.dotGeneral_plain_apply _ none x w a b

/-- The product with the residual weights is the projection. -/
theorem dotR_eq (x : FVec Ideal S50000x512 .f32) (w : FVec Ideal S512x512 .f32) :
    Host.dotGeneral dot_S50000x512_S512x512_S50000x512_1_0_0_1_n_n none x w = proj x w := by
  funext i
  obtain ⟨a, b, rfl⟩ := exists_ix2 (n0 := 50000) (n1 := 512) i
  show Host.dotGeneral (Cert.LibPlainProduct.plainDims Facts₀.dot_S50000x512_S512x512_S50000x512_1_0_0_1_n_n_wf) none x w
    (ix2 a b) = ∑ c : Fin 512, x (ix2 a c) * w (ix2 c b)
  exact Cert.LibPlainProduct.dotGeneral_plain_apply _ none x w a b

/-- The batched product over the 4 bases, node by node: entry (n, h, f) is Σ_k L(n, h, k) · R(n, k, f). -/
theorem conv3_apply (L : FVec Ideal S50000x8x4 .f32) (R : FVec Ideal S50000x4x64 .f32) (n : Fin 50000) (h : Fin 8)
    (f : Fin 64) :
    Host.dotGeneral dot_S50000x8x4_S50000x4x64_S50000x8x64_2_1_1_2_0_0 none L R (ix3 n h f)
      = ∑ k : Fin 4, L (ix3 n h k) * R (ix3 n k f) := by
  show Host.dotGeneral (⟨[2], [1], [1], [2], [0], [0],
      Facts₀.dot_S50000x8x4_S50000x4x64_S50000x8x64_2_1_1_2_0_0_wf⟩ :
        DotDims ⟨3, ![50000, 8, 4]⟩ ⟨3, ![50000, 4, 64]⟩ ⟨3, ![50000, 8, 64]⟩) none L R (ix3 n h f) = _
  exact Idealize.ShloMosaic.StackMember.dotGeneral_stack_apply _ none L R n h f

/-! ## The aggregation -/

section Aggregation

-- the operations with a fold or a search inside stay closed: the comparison is of their arguments alone
attribute [local irreducible] Host.scatterAdd Host.gather concatenate

/-- The reference's aggregation is the specification's: the same host operations in the same order over the same
    edge table and basis array; the two spellings differ only in which program's copy of each shape, dimension
    record and side condition they name, and those copies have equal data. -/
theorem refAgg_eq [Cert.KernelIdeal.Facts₀] (e : (⟨S2x800000, .i32⟩ : BufTy).Contents (Elt Ideal))
    (bases : FVec Ideal S50000x256 .f32) :
    Cert.ReferenceIdeal.RefTerm.refAgg (F := Ideal) e bases = Cert.EG.aggOf (F := Ideal) e bases := rfl

end Aggregation

end Cert.ReferenceIdeal.RefProducts

end
-- ==== Proof.LibBroadcastReads.lean ====
/-
  Four broadcasts between a vector and a matrix, read at an index: a vector of n entries as the one-row matrix [1, n];
  a vector of n entries as the one-column matrix [n, 1]; a one-row matrix [1, n] repeated down m rows; a one-column
  matrix [n, 1] repeated across m columns. Each reads the operand at the coordinate the broadcast keeps. And the
  host's sum of a matrix over its columns, read at a row: the initial value plus the sum of the row's entries.
-/
import Idealize.ShloMosaic.Lib.ValueIdx
import Idealize.ShloMosaic.Lib.Pipeline.Value
import Idealize.ShloMosaic.Lib.IdealHost

open scoped BigOperators

namespace Cert.LibBroadcastReads

open Idealize.ShloMosaic Idealize.ShloMosaic.ValueIdx

variable {α : Type}

/-- A vector as a one-row matrix, read at (u, j): the vector at j. -/
theorem vecRow_apply {n : ℕ} (h : (⟨1, ![n]⟩ : Shape).BroadcastsInDim (⟨2, ![1, n]⟩ : Shape) ![1])
    (x : (⟨1, ![n]⟩ : Shape).Idx → α) (u : Fin 1) (j : Fin n) :
    broadcastInDim (⟨2, ![1, n]⟩ : Shape) ![1] h x (ix2 u j) = x (ix1 j) := by
  refine broadcastInDim_apply ![1] h x (ix2 u j) (ix1 j) ?_
  intro a
  fin_cases a
  show j.val = if n = 1 then 0 else j.val
  split_ifs with hn
  · have := j.isLt; omega
  · rfl

/-- A vector as a one-column matrix, read at (r, u): the vector at r. -/
theorem vecCol_apply {n : ℕ} (h : (⟨1, ![n]⟩ : Shape).BroadcastsInDim (⟨2, ![n, 1]⟩ : Shape) ![0])
    (x : (⟨1, ![n]⟩ : Shape).Idx → α) (r : Fin n) (u : Fin 1) :
    broadcastInDim (⟨2, ![n, 1]⟩ : Shape) ![0] h x (ix2 r u) = x (ix1 r) := by
  refine broadcastInDim_apply ![0] h x (ix2 r u) (ix1 r) ?_
  intro a
  fin_cases a
  show r.val = if n = 1 then 0 else r.val
  split_ifs with hn
  · have := r.isLt; omega
  · rfl

/-- A one-row matrix repeated down m rows, read at (r, j): the row at (0, j). -/
theorem rowDown_apply {m n : ℕ} (h : (⟨2, ![1, n]⟩ : Shape).BroadcastsInDim (⟨2, ![m, n]⟩ : Shape) ![0, 1])
    (y : (⟨2, ![1, n]⟩ : Shape).Idx → α) (r : Fin m) (j : Fin n) :
    broadcastInDim (⟨2, ![m, n]⟩ : Shape) ![0, 1] h y (ix2 r j) = y (ix2 (0 : Fin 1) j) := by
  refine broadcastInDim_apply ![0, 1] h y (ix2 r j) (ix2 (0 : Fin 1) j) ?_
  intro a
  fin_cases a
  · show (0 : ℕ) = if (1 : ℕ) = 1 then 0 else _
    simp
  · show j.val = if n = 1 then 0 else j.val
    split_ifs with hn
    · have := j.isLt; omega
    · rfl

/-- A one-column matrix repeated across m columns, read at (r, j): the column at (r, 0). -/
theorem colAcross_apply {n m : ℕ} (h : (⟨2, ![n, 1]⟩ : Shape).BroadcastsInDim (⟨2, ![n, m]⟩ : Shape) ![0, 1])
    (y : (⟨2, ![n, 1]⟩ : Shape).Idx → α) (r : Fin n) (j : Fin m) :
    broadcastInDim (⟨2, ![n, m]⟩ : Shape) ![0, 1] h y (ix2 r j) = y (ix2 r (0 : Fin 1)) := by
  refine broadcastInDim_apply ![0, 1] h y (ix2 r j) (ix2 r (0 : Fin 1)) ?_
  intro a
  fin_cases a
  · show r.val = if n = 1 then 0 else r.val
    split_ifs with hn
    · have := r.isLt; omega
    · rfl
  · show (0 : ℕ) = if (1 : ℕ) = 1 then 0 else _
    simp

/-- The source index of a matrix over row r with column k inserted is (r, k). -/
theorem lift_row {m n : ℕ} (h : (⟨2, ![m, n]⟩ : Shape).Reduces [1] (⟨1, ![m]⟩ : Shape)) (r : Fin m) (k : Fin n) :
    h.lift (ix1 r) k = ix2 r k := by
  funext c
  apply Fin.ext
  match c with
  | ⟨0, _⟩ => rfl
  | ⟨1, _⟩ => rfl

/-- The host's sum of a matrix over its columns from an initial value, read at row r: the initial value plus the sum
    of the row's entries. -/
theorem hostRowSum_apply {m n : ℕ} {u : Shape} (x : FVec Ideal (⟨2, ![m, n]⟩ : Shape) .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (r : Fin m) :
    Host.reduceAdd x init h' hu (ix1 r) = init (Shape.Idx.first hu) + ∑ k : Fin n, x (ix2 r k) := by
  refine (hostReduceAdd_apply x init h' hu (ix1 r)).trans ?_
  refine (Ideal.hostReduceAdd_single h' h x _ (ix1 r)).trans ?_
  refine congrArg (init (Shape.Idx.first hu) + ·) ?_
  exact Finset.sum_congr rfl fun k _ => congrArg x (lift_row h r k)

end Cert.LibBroadcastReads
-- ==== Proof.RefTailA.lean ====
/-
  The small pieces of the reference's tail read at an index, at the extended reals: the word 512.0 as a number, the
  divisor of the variance and its comparison with zero, a vector repeated down the rows, the row sums and the row
  means as columns, and a column repeated across the 512 columns.
-/
import proofs.«151256_j76828374991621_2_alg».proof.Proof.RefTerm
import proofs.«151256_j76828374991621_2_alg».proof.Proof.LibBroadcastReads
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.ReferenceIdeal.RefTail

open Idealize.ShloMosaic Idealize.ShloMosaic.ValueIdx
open Cert.ReferenceIdeal Cert.ReferenceIdeal.RefTerm Cert.LibBroadcastReads

/-! ## The word 512.0 -/

/-- The word 0x44000000 denotes the real 512. -/
theorem ofBits_512 : Ideal.ofBits .f32 0x44000000#32 = ((512 : ℝ) : EReal) := by
  simp [Ideal.ofBits, Ideal.ieee, -EReal.coe_mul]; norm_num

/-- 512 is positive. -/
theorem ofBits_512_pos : (0 : EReal) < Ideal.ofBits .f32 0x44000000#32 := by
  rw [ofBits_512]; exact_mod_cast (by norm_num : (0 : ℝ) < 512)

variable [Facts₀]
open Facts₀

/-- The divisor of the variance is the word 512.0 itself: the integer 0 converts to 0 and 512 − 0 = 512. -/
theorem varDen_apply (i : S_.Idx) : varDen (F := Ideal) i = Ideal.ofBits .f32 0x44000000#32 := by
  show Ideal.ofBits .f32 0x44000000#32 - (((0#32 : BitVec 32).toInt : ℝ) : EReal) = _
  have h0 : (((0#32 : BitVec 32).toInt : ℝ) : EReal) = 0 := by
    have : (0#32 : BitVec 32).toInt = 0 := by decide
    rw [this]; simp
  rw [h0, sub_zero]

/-- It is greater than zero. -/
theorem varDen_cmp (i : S_.Idx) :
    cmpf .ogt (varDen (F := Ideal)) (constant S_ .f32 0x00000000#32) i = 1#1 := by
  show Ideal.cmp .ogt (varDen (F := Ideal) i) (Ideal.ofBits .f32 0x00000000#32) = 1#1
  rw [varDen_apply, Ideal.ofBits_zero_f32]
  unfold Ideal.cmp
  simp [ofBits_512_pos]

/-! ## Broadcasts and row sums -/

/-- A vector of 512 entries repeated down the rows reads the vector at the column. -/
theorem rows512_apply (v : FVec Ideal S512 .f32) (r : Fin 50000) (j : Fin 512) :
    rows512 (F := Ideal) v (ix2 r j) = v (ix1 j) := by
  unfold rows512
  refine (rowDown_apply bcast_S1x512_S50000x512_0_1 _ r j).trans ?_
  exact vecRow_apply bcast_S512_S1x512_1 v 0 j

/-- A vector of 32 entries repeated down the rows reads the vector at the column. -/
theorem rows32_apply (v : FVec Ideal S32 .f32) (r : Fin 50000) (j : Fin 32) :
    rows32 (F := Ideal) v (ix2 r j) = v (ix1 j) := by
  unfold rows32
  refine (rowDown_apply bcast_S1x32_S50000x32_0_1 _ r j).trans ?_
  exact vecRow_apply bcast_S32_S1x32_1 v 0 j

/-- The row sums as a column read the sum of the row. -/
theorem rowSum_apply (a : FVec Ideal S50000x512 .f32) (r : Fin 50000) (u : Fin 1) :
    rowSum (F := Ideal) a (ix2 r u) = ∑ k : Fin 512, a (ix2 r k) := by
  unfold rowSum
  refine (vecCol_apply bcast_S50000_S50000x1_0 _ r u).trans ?_
  refine (hostRowSum_apply a _ reducesTo_S50000x512_S50000_d1 (by decide) h_S_ r).trans ?_
  show Ideal.ofBits .f32 0x00000000#32 + _ = _
  rw [Ideal.ofBits_zero_f32, zero_add]

/-- The row means as a column read the row's sum over the word 512.0. -/
theorem rowMean_apply (a : FVec Ideal S50000x512 .f32) (r : Fin 50000) (u : Fin 1) :
    rowMean (F := Ideal) a (ix2 r u)
      = Ideal.div (∑ k : Fin 512, a (ix2 r k)) (Ideal.ofBits .f32 0x44000000#32) := by
  unfold rowMean
  refine (hostDivf_apply _ _ _).trans ?_
  exact congrArg₂ Ideal.div (rowSum_apply a r u) (broadcastInDim_scalar_apply bcast_S_S50000x1 _ _)

/-- A column repeated across the 512 columns reads the column at the row. -/
theorem across_apply (c : FVec Ideal S50000x1 .f32) (r : Fin 50000) (j : Fin 512) :
    broadcastInDim S50000x512 ![0, 1] bcast_S50000x1_S50000x512_0_1 c (ix2 r j) = c (ix2 r (0 : Fin 1)) :=
  colAcross_apply bcast_S50000x1_S50000x512_0_1 c r j

/-- A scalar spread over a column reads the scalar. -/
theorem splatCol_apply (x : FVec Ideal S_ .f32) (r : Fin 50000) (u : Fin 1) :
    broadcastInDim S50000x1 ![] bcast_S_S50000x1 x (ix2 r u) = x ix0 :=
  broadcastInDim_scalar_apply bcast_S_S50000x1 x _

end Cert.ReferenceIdeal.RefTail

end
-- ==== Proof.RefTailB.lean ====
/-
  The row variances of the reference, read at a row: the sum over the row of the squared deviations from the row's
  mean, over the word 512.0 (the divisor is 512 − 0, which is positive, so the select keeps the quotient).
-/
import proofs.«151256_j76828374991621_2_alg».proof.Proof.RefTailA

noncomputable section

open scoped BigOperators

namespace Cert.ReferenceIdeal.RefTail

open Idealize.ShloMosaic Idealize.ShloMosaic.ValueIdx
open Cert.ReferenceIdeal Cert.ReferenceIdeal.RefTerm Cert.LibBroadcastReads

variable [Facts₀]
open Facts₀

/-- The deviation of an entry from its row's mean. -/
theorem dev_apply (a : FVec Ideal S50000x512 .f32) (r : Fin 50000) (j : Fin 512) :
    subf a (broadcastInDim S50000x512 ![0, 1] bcast_S50000x1_S50000x512_0_1 (rowMean a)) (ix2 r j)
      = a (ix2 r j) - Ideal.div (∑ k : Fin 512, a (ix2 r k)) (Ideal.ofBits .f32 0x44000000#32) := by
  refine (subf_apply _ _ _).trans ?_
  exact congrArg (a (ix2 r j) - ·) ((across_apply _ r j).trans (rowMean_apply a r 0))

/-- The row variances as a column read the mean of the squared deviations. -/
theorem varOf_apply (a : FVec Ideal S50000x512 .f32) (r : Fin 50000) (u : Fin 1) :
    varOf (F := Ideal) a (ix2 r u)
      = Ideal.div
          (∑ j : Fin 512,
            (a (ix2 r j) - Ideal.div (∑ k : Fin 512, a (ix2 r k)) (Ideal.ofBits .f32 0x44000000#32))
              * (a (ix2 r j) - Ideal.div (∑ k : Fin 512, a (ix2 r k)) (Ideal.ofBits .f32 0x44000000#32)))
          (Ideal.ofBits .f32 0x44000000#32) := by
  unfold varOf
  refine (select_apply _ _ _ _).trans ?_
  have hc : broadcastInDim S50000x1 ![] bcast_S_S50000x1
      (cmpf .ogt (varDen (F := Ideal)) (constant S_ .f32 0x00000000#32)) (ix2 r u) = 1#1 :=
    (broadcastInDim_scalar_apply bcast_S_S50000x1 _ _).trans (varDen_cmp ix0)
  rw [hc, select_one]
  refine (hostDivf_apply _ _ _).trans ?_
  refine congrArg₂ Ideal.div ?_ ((splatCol_apply _ r u).trans (varDen_apply ix0))
  refine (rowSum_apply _ r u).trans ?_
  refine Finset.sum_congr rfl fun j _ => ?_
  refine (mulf_apply _ _ _).trans ?_
  rw [dev_apply]

end Cert.ReferenceIdeal.RefTail

end
-- ==== Proof.RefTailC.lean ====
/-
  The rows before normalisation, read at an index: the per-head combination is the sum over the four bases of the
  biased combination weight of head j / 64 times the aggregated basis entry of feature j % 64, and the output bias,
  the residual product and the residual bias are added to it; regrouped, that is the specification's entry.
-/
import proofs.«151256_j76828374991621_2_alg».proof.Proof.RefTailA
import proofs.«151256_j76828374991621_2_alg».proof.Proof.LibHeads
import proofs.«151256_j76828374991621_2_alg».proof.Proof.RefProducts
import proofs.«151256_j76828374991621_2_alg».proof.Proof.Spec

noncomputable section

open scoped BigOperators

namespace Cert.ReferenceIdeal.RefTail

open Idealize.ShloMosaic Idealize.ShloMosaic.ValueIdx
open Cert.ReferenceIdeal Cert.ReferenceIdeal.RefTerm Cert.LibBroadcastReads

variable [Facts₀]
open Facts₀

/-- The per-head combination at (r, j): head j / 64, feature j % 64, summed over the four bases. -/
theorem convOf_apply (comb : FVec Ideal S50000x32 .f32) (agg : FVec Ideal S50000x256 .f32) (r : Fin 50000) (j : Fin 512) :
    convOf (F := Ideal) comb agg (ix2 r j)
      = ∑ k : Fin 4, comb (ix2 r (⟨4 * (j.val / 64) + k.val, by omega⟩ : Fin 32))
          * agg (ix2 r (⟨64 * k.val + j.val % 64, by omega⟩ : Fin 256)) := by
  unfold convOf
  refine (Cert.LibHeads.merge_apply (N := 50000) (a := 8) (b := 64) (c := 512) rfl _
    shapeCasts_S50000x8x64_S50000x512 r j).trans ?_
  refine (Cert.ReferenceIdeal.RefProducts.conv3_apply _ _ r _ _).trans ?_
  refine Finset.sum_congr rfl fun k _ => ?_
  refine congrArg₂ (· * ·) ?_ ?_
  · exact Cert.LibHeads.split_apply (N := 50000) (a := 8) (b := 4) (c := 32) rfl comb
      shapeCasts_S50000x32_S50000x8x4 r _ k
  · exact Cert.LibHeads.split_apply (N := 50000) (a := 4) (b := 64) (c := 256) rfl agg
      shapeCasts_S50000x256_S50000x4x64 r k _

/-- The rows before normalisation are the specification's: the combination of the biased weights with the
    aggregation, plus the output bias, plus the biased residual. -/
theorem preOf_apply (mmC : FVec Ideal S50000x32 .f32) (bc : FVec Ideal S32 .f32) (agg : FVec Ideal S50000x256 .f32)
    (cb : FVec Ideal S512 .f32) (mmR : FVec Ideal S50000x512 .f32) (br : FVec Ideal S512 .f32)
    (r : Fin 50000) (j : Fin 512) :
    preOf (F := Ideal) mmC bc agg cb mmR br (ix2 r j)
      = Cert.EG.preAt (fun i => mmC i + bc (ix1 (i 1))) agg (fun i => mmR i + br (ix1 (i 1))) cb r j := by
  have e1 : preOf (F := Ideal) mmC bc agg cb mmR br (ix2 r j)
      = ((convOf (addf mmC (rows32 bc)) agg (ix2 r j) + rows512 cb (ix2 r j)) + mmR (ix2 r j))
          + rows512 br (ix2 r j) := rfl
  rw [e1, rows512_apply, rows512_apply, convOf_apply, add_assoc]
  unfold Cert.EG.preAt Cert.EG.convAt
  refine congrArg₂ (· + ·) (congrArg (· + cb (ix1 j)) ?_) rfl
  refine Finset.sum_congr rfl fun k _ => ?_
  refine congrArg (· * agg _) ?_
  refine (addf_apply _ _ _).trans ?_
  rw [rows32_apply]

end Cert.ReferenceIdeal.RefTail

end
-- ==== Proof.RefTail.lean ====
/-
  The reference's tail is the specification's normalised output: entry by entry, the deviation from the row mean
  times the inverse square root of the row variance plus ε, times γ, plus β, and the positive part, over the rows
  that the combination, the output bias and the biased residual make.
-/
import proofs.«151256_j76828374991621_2_alg».proof.Proof.RefTailB
import proofs.«151256_j76828374991621_2_alg».proof.Proof.RefTailC

noncomputable section

open scoped BigOperators

namespace Cert.ReferenceIdeal.RefTail

open Idealize.ShloMosaic Idealize.ShloMosaic.ValueIdx
open Cert.ReferenceIdeal Cert.ReferenceIdeal.RefTerm Cert.LibBroadcastReads

/-- Row normalisation, scale, shift and positive part of an array of rows, read at (r, j). -/
theorem normOut_apply [Facts₀] (a : FVec Ideal S50000x512 .f32) (g b : FVec Ideal S512 .f32) (r : Fin 50000) (j : Fin 512) :
    normOut (F := Ideal) a g b (ix2 r j)
      = max
          ((a (ix2 r j) - Ideal.div (∑ k : Fin 512, a (ix2 r k)) (Ideal.ofBits .f32 0x44000000#32))
              * Ideal.rsqrt
                  (Ideal.div
                      (∑ q : Fin 512,
                        (a (ix2 r q) - Ideal.div (∑ k : Fin 512, a (ix2 r k)) (Ideal.ofBits .f32 0x44000000#32))
                          * (a (ix2 r q) - Ideal.div (∑ k : Fin 512, a (ix2 r k)) (Ideal.ofBits .f32 0x44000000#32)))
                      (Ideal.ofBits .f32 0x44000000#32)
                    + Ideal.ofBits .f32 0x3727C5AC#32)
              * g (ix1 j)
            + b (ix1 j))
          (Ideal.ofBits .f32 0x00000000#32) := by
  unfold normOut
  refine (maximumf_apply _ _ _).trans ?_
  refine congrArg₂ max ?_ (broadcastInDim_scalar_apply Facts₀.bcast_S_S50000x512 _ _)
  refine (addf_apply _ _ _).trans ?_
  refine congrArg₂ (· + ·) ?_ (rows512_apply b r j)
  refine (mulf_apply _ _ _).trans ?_
  refine congrArg₂ (· * ·) ?_ (rows512_apply g r j)
  refine (mulf_apply _ _ _).trans ?_
  refine congrArg₂ (· * ·) (dev_apply a r j) ?_
  refine (across_apply _ r j).trans ?_
  have e : Host.rsqrt (addf (varOf a)
        (broadcastInDim S50000x1 ![] Facts₀.bcast_S_S50000x1 (constant (F := Ideal) S_ .f32 0x3727C5AC#32))) (ix2 r (0 : Fin 1))
      = Ideal.rsqrt (varOf (F := Ideal) a (ix2 r (0 : Fin 1))
          + broadcastInDim S50000x1 ![] Facts₀.bcast_S_S50000x1 (constant (F := Ideal) S_ .f32 0x3727C5AC#32) (ix2 r (0 : Fin 1))) := rfl
  rw [e, varOf_apply, splatCol_apply]
  rfl

/-- THE TAIL: over the two products, the aggregation and the five vectors, the reference's tail is the
    specification's output over the biased projections. -/
theorem refTail_eq [Facts₀] (mmC : FVec Ideal S50000x32 .f32) (bc : FVec Ideal S32 .f32) (agg : FVec Ideal S50000x256 .f32)
    (cb : FVec Ideal S512 .f32) (mmR : FVec Ideal S50000x512 .f32) (br g b : FVec Ideal S512 .f32) :
    RefTerm.refTail (F := Ideal) mmC bc agg cb mmR br g b
      = Cert.EG.lnOut (fun i => mmC i + bc (ix1 (i 1))) agg (fun i => mmR i + br (ix1 (i 1))) cb g b := by
  funext i
  obtain ⟨r, j, rfl⟩ : ∃ (r : Fin 50000) (j : Fin 512), i = ix2 r j := ⟨i 0, i 1, eq_ix2 i⟩
  unfold RefTerm.refTail
  rw [normOut_apply]
  simp only [preOf_apply]
  rfl

end Cert.ReferenceIdeal.RefTail

end
-- ==== Proof.lean ====
/-
  An edge-gated graph convolution layer (three dense projections, a symmetric-normalised aggregation over the edge list,
  a per-head combination, a residual, layer normalisation and the positive part) as two tiled kernels around host
  gather / scatter operations, against the same layer written with whole-array operations.

  At the ideal values both programs compute one function of the ten arguments, Cert.EG.layer (Proof/Spec.lean). The
  kernel side: the run of the program's segments with the result named (Proof/KRun.lean); the first region's three
  output arrays are the three products, block by block (Proof/K0Value.lean); the stretch between the regions applies the
  aggregation, carried as one function of the edge table and the basis array (Proof/KHost.lean); the second region's
  output array is, row by row, the combination, residual, normalisation and positive part of the arrays it is entered
  with (Proof/K1Value.lean); together (Proof/KValue.lean) the result is the layer's function. The reference side: its run
  as one straight line of host operations (Proof/RefRun*.lean) whose result is a composed term (Proof/RefTerm.lean); its
  three products are the same sums (Proof/RefProducts.lean), its aggregation the same function, and its tail, read index
  by index, the same rows (Proof/RefTail*.lean). The two sides differ only by the grouping of sums: four terms
  accumulated from zero against a sum over four, an initial zero before a row sum, (a + b) + (c + d) against
  ((a + b) + c) + d; nothing distributes and nothing cancels, so no finiteness is used.
-/
import proofs.«151256_j76828374991621_2_alg».proof.Defs
import proofs.«151256_j76828374991621_2_alg».proof.Proof.Gen.Kernel
import proofs.«151256_j76828374991621_2_alg».proof.Proof.Gen.Kernel.Frame
import proofs.«151256_j76828374991621_2_alg».proof.Proof.Gen.KernelIdeal
import proofs.«151256_j76828374991621_2_alg».proof.Proof.Gen.KernelIdeal.Frame
import proofs.«151256_j76828374991621_2_alg».proof.Proof.Gen.ReferenceIdeal
import proofs.«151256_j76828374991621_2_alg».proof.Proof.Gen.Pre_finite_inputs
import proofs.«151256_j76828374991621_2_alg».proof.Proof.KRun
import proofs.«151256_j76828374991621_2_alg».proof.Proof.KValue
import proofs.«151256_j76828374991621_2_alg».proof.Proof.K0Value
import proofs.«151256_j76828374991621_2_alg».proof.Proof.K1Value
import proofs.«151256_j76828374991621_2_alg».proof.Proof.RefRun
import proofs.«151256_j76828374991621_2_alg».proof.Proof.RefProducts
import proofs.«151256_j76828374991621_2_alg».proof.Proof.RefTail
import Idealize.ShloMosaic.Adequacy
import Idealize.ShloMosaic.Init

set_option maxRecDepth 16384

noncomputable section

namespace Cert.Proof

open Idealize.ShloMosaic Idealize.ShloMosaic.ValueIdx Idealize.SL.Sem

/-- The reference's composed term is the layer's function: its three products are the sums, its aggregation the shared
    function, its tail the same rows. -/
theorem refOut_eq (x : FVec Ideal Cert.ReferenceIdeal.S50000x512 .f32)
    (e : (⟨Cert.ReferenceIdeal.S2x800000, .i32⟩ : BufTy).Contents (Elt Ideal))
    (wb : FVec Ideal Cert.ReferenceIdeal.S512x256 .f32) (wc : FVec Ideal Cert.ReferenceIdeal.S512x32 .f32)
    (bc : FVec Ideal Cert.ReferenceIdeal.S32 .f32) (cb : FVec Ideal Cert.ReferenceIdeal.S512 .f32)
    (wr : FVec Ideal Cert.ReferenceIdeal.S512x512 .f32) (br g b : FVec Ideal Cert.ReferenceIdeal.S512 .f32) :
    Cert.ReferenceIdeal.RefTerm.refOut (F := Ideal) x e wb wc bc cb wr br g b = Cert.EG.layer x e wb wc bc cb wr br g b := by
  unfold Cert.ReferenceIdeal.RefTerm.refOut
  rw [Cert.ReferenceIdeal.RefProducts.dotC_eq, Cert.ReferenceIdeal.RefProducts.dotB_eq, Cert.ReferenceIdeal.RefProducts.dotR_eq,
    Cert.ReferenceIdeal.RefProducts.refAgg_eq, Cert.ReferenceIdeal.RefTail.refTail_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c =>
    ⟨(h c _).trans (Cert.ReferenceIdeal.HandRun.arg0_eq _), (h c _).trans (Cert.ReferenceIdeal.HandRun.arg1_eq _),
     (h c _).trans (Cert.ReferenceIdeal.HandRun.arg2_eq _), (h c _).trans (Cert.ReferenceIdeal.HandRun.arg3_eq _),
     (h c _).trans (Cert.ReferenceIdeal.HandRun.arg4_eq _), (h c _).trans (Cert.ReferenceIdeal.HandRun.arg5_eq _),
     (h c _).trans (Cert.ReferenceIdeal.HandRun.arg6_eq _), (h c _).trans (Cert.ReferenceIdeal.HandRun.arg7_eq _),
     (h c _).trans (Cert.ReferenceIdeal.HandRun.arg8_eq _), (h c _).trans (Cert.ReferenceIdeal.HandRun.arg9_eq _)⟩)
    (Cert.ReferenceIdeal.HandRun.run_main (F := Ideal) m ρ)

theorem preserves : Cert.preserves_Kernel_KernelIdeal := trivial

set_option backward.isDefEq.respectTransparency.types false in
theorem algebraic : Cert.algebraic_KernelIdeal_ReferenceIdeal := by
  intro m ρ m' ρ' _ hagree
  refine ⟨fun c => Cert.EG.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c).1.trans (Cert.KernelIdeal.KValue.value_of m ρ Cert.KernelIdeal.KV.arr1 Cert.KernelIdeal.KV0.arr0_6
          Cert.KernelIdeal.KV0.arr0_7 Cert.KernelIdeal.KV0.arr0_8 c), (h c).2⟩)
      (Cert.KernelIdeal.KRun.run_out (F := Ideal) m ρ)
  · refine (θ_run Cert.ReferenceIdeal.defs _ _).mono (fun r h c => ⟨?_,
      (h c _).trans (Cert.ReferenceIdeal.HandRun.arg0_eq _), (h c _).trans (Cert.ReferenceIdeal.HandRun.arg1_eq _),
      (h c _).trans (Cert.ReferenceIdeal.HandRun.arg2_eq _), (h c _).trans (Cert.ReferenceIdeal.HandRun.arg3_eq _),
      (h c _).trans (Cert.ReferenceIdeal.HandRun.arg4_eq _), (h c _).trans (Cert.ReferenceIdeal.HandRun.arg5_eq _),
      (h c _).trans (Cert.ReferenceIdeal.HandRun.arg6_eq _), (h c _).trans (Cert.ReferenceIdeal.HandRun.arg7_eq _),
      (h c _).trans (Cert.ReferenceIdeal.HandRun.arg8_eq _), (h c _).trans (Cert.ReferenceIdeal.HandRun.arg9_eq _)⟩)
      (Cert.ReferenceIdeal.HandRun.run_main (F := Ideal) m' ρ')
    refine (h c _).trans ((Cert.ReferenceIdeal.HandRun.out_eq _).trans ?_)
    refine (refOut_eq _ _ _ _ _ _ _ _ _ _).trans ?_
    obtain ⟨a0, a1, a2, a3, a4, a5, a6, a7, a8, a9⟩ := hagree c
    beta_reduce
    rw [← a0, ← a1, ← a2, ← a3, ← a4, ← a5, ← a6, ← a7, ← a8, ← a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
